-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1 .f32 := Host.absf main_arg5
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  main_v23

def fn {F : FTy → Type} [FloatOps F] (main_arg0 : FVec F S50000x512 .f32) (main_arg1 : IVec S2x1600000 32) (main_arg2 : FVec F S512x128 .f32) (main_arg3 : FVec F S128 .f32) (main_arg4 : FVec F S128x1 .f32) (main_arg5 : FVec F S1 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg2
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x1 .f32 := Host.absf main_arg4
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg5 main_v13 main_v16
-- ==== Kernel.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S50000 : Shape := ⟨1, ![50000]⟩
abbrev S1600000x1 : Shape := ⟨2, ![1600000, 1]⟩
abbrev S50000x128 : Shape := ⟨2, ![50000, 128]⟩
abbrev S5000x512 : Shape := ⟨2, ![5000, 512]⟩
abbrev S5000x128 : Shape := ⟨2, ![5000, 128]⟩
abbrev S1600000x128 : Shape := ⟨2, ![1600000, 128]⟩
abbrev S50000x1 : Shape := ⟨2, ![50000, 1]⟩
abbrev S1x128 : Shape := ⟨2, ![1, 128]⟩
abbrev S1x1 : Shape := ⟨2, ![1, 1]⟩

abbrev nBuf : Space → Nat
  | .hbm => 99
  | .vmem => 5
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S50000, .f32⟩
  | .hbm, ⟨14, _⟩ => ⟨S1600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S50000x128, .bf16⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .bf16⟩
  | .hbm, ⟨55, _⟩ => ⟨S1600000x128, .f32⟩
  | .hbm, ⟨56, _⟩ => ⟨S1600000x1, .f32⟩
  | .hbm, ⟨57, _⟩ => ⟨S1600000x128, .f32⟩
  | .hbm, ⟨58, _⟩ => ⟨S1600000x128, .f32⟩
  | .hbm, ⟨59, _⟩ => ⟨S_, .f32⟩
  | .hbm, ⟨60, _⟩ => ⟨S50000x128, .f32⟩
  | .hbm, ⟨61, _⟩ => ⟨S1600000x1, .i32⟩
  | .hbm, ⟨62, _⟩ => ⟨S50000x128, .f32⟩
  | .hbm, ⟨63, _⟩ => ⟨S50000, .f32⟩
  | .hbm, ⟨64, _⟩ => ⟨S50000x1, .f32⟩
  | .hbm, ⟨65, _⟩ => ⟨S50000x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x128, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x1, .f32⟩
  | .hbm, ⟨76, _⟩ => ⟨S_, .i32⟩
  | .hbm, ⟨77, _⟩ => ⟨S1600000, .i32⟩
  | .hbm, ⟨78, _⟩ => ⟨S1600000, .i1⟩
  | .hbm, ⟨79, _⟩ => ⟨S_, .i32⟩
  | .hbm, ⟨80, _⟩ => ⟨S1600000, .i32⟩
  | .hbm, ⟨81, _⟩ => ⟨S1600000, .i32⟩
  | .hbm, ⟨82, _⟩ => ⟨S1600000, .i32⟩
  | .hbm, ⟨83, _⟩ => ⟨S1600000x1, .i32⟩
  | .hbm, ⟨84, _⟩ => ⟨S1600000x1, .f32⟩
  | .hbm, ⟨85, _⟩ => ⟨S1600000x1, .f32⟩
  | .hbm, ⟨86, _⟩ => ⟨S1600000x1, .f32⟩
  | .hbm, ⟨87, _⟩ => ⟨S_, .f32⟩
  | .hbm, ⟨88, _⟩ => ⟨S50000x1, .f32⟩
  | .hbm, ⟨89, _⟩ => ⟨S1600000x1, .i32⟩
  | .hbm, ⟨90, _⟩ => ⟨S50000x1, .f32⟩
  | .hbm, ⟨91, _⟩ => ⟨S50000, .f32⟩
  | .hbm, ⟨92, _⟩ => ⟨S50000x1, .f32⟩
  | .hbm, ⟨93, _⟩ => ⟨S50000x1, .f32⟩
  | .hbm, ⟨94, _⟩ => ⟨S50000x1, .f32⟩
  | .hbm, ⟨95, _⟩ => ⟨S1x1, .f32⟩
  | .hbm, ⟨96, _⟩ => ⟨S50000x1, .f32⟩
  | .hbm, ⟨97, _⟩ => ⟨S50000x1, .f32⟩
  | .hbm, ⟨98, _⟩ => ⟨S50000, .f32⟩
  | .local _ .vmem, ⟨0, _⟩ => ⟨S5000x512, .f32⟩
  | .local _ .vmem, ⟨1, _⟩ => ⟨S5000x512, .f32⟩
  | .local _ .vmem, ⟨2, _⟩ => ⟨S512x128, .f32⟩
  | .local _ .vmem, ⟨3, _⟩ => ⟨S5000x128, .bf16⟩
  | .local _ .vmem, ⟨4, _⟩ => ⟨S5000x128, .bf16⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_call0_v0 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_7 : Ref sig .tc := ⟨.hbm, 46, rfl⟩
abbrev main_v30 : Ref sig .tc := ⟨.hbm, 47, rfl⟩
abbrev main_v31 : Ref sig .tc := ⟨.hbm, 48, rfl⟩
abbrev main_c_8 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_call1_cst : Ref sig .tc := ⟨.hbm, 72, rfl⟩
abbrev main_call1_v0 : Ref sig .tc := ⟨.hbm, 73, rfl⟩
abbrev main_v53 : Ref sig .tc := ⟨.hbm, 74, rfl⟩
abbrev main_v54 : Ref sig .tc := ⟨.hbm, 75, rfl⟩
abbrev main_c_10 : Ref sig .tc := ⟨.hbm, 76, rfl⟩
abbrev main_v55 : Ref sig .tc := ⟨.hbm, 77, rfl⟩
abbrev main_v56 : Ref sig .tc := ⟨.hbm, 78, rfl⟩
abbrev main_c_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S5000x128_S5000x128_0_0 : ∀ a, (![0, 0] : Fin 2 → Nat) a + S5000x128.size a ≤ S5000x128.size a
  h_S5000x128 : 0 < S5000x128.numel
  packedbf16_S5000x128_S5000x128_0_0 : (Rect.unit (s := S5000x128) ![0, 0] S5000x128.size inb_S5000x128_S5000x128_0_0).PackedRows (EltTy.packing .bf16)
  bcast_S1600000x1_S1600000x128_0_1 : S1600000x1.BroadcastsInDim S1600000x128 (![0, 1] : Fin 2 → Fin S1600000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S1600000x1_S1600000_n_0_0_1_wf : ScatterDims.WF S50000 S1600000x1 S1600000 [] [0] [0] 1
  gather_S50000_S1600000x1_S1600000_n_0_n_n_0_1_1_wf : GatherDims.WF S50000 S1600000x1 S1600000 [] [0] [] [0] [] 1 ![1]
  dot_S5000x512_S512x128_S5000x128_1_0_0_1_n_n_wf : DotDims.WF S5000x512 S512x128 S5000x128 [1] [0] [0] [1] [] []
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x1_S50000x1_1_0_0_1_n_n_wf : DotDims.WF S50000x128 S128x1 S50000x1 [1] [0] [0] [1] [] []
  gather_S50000x1_S1600000x1_S1600000x1_1_0_n_n_0_1_11_wf : GatherDims.WF S50000x1 S1600000x1 S1600000x1 [1] [0] [] [0] [] 1 ![1, 1]
  scatter_S50000x1_S1600000x1_S1600000x1_1_0_0_1_wf : ScatterDims.WF S50000x1 S1600000x1 S1600000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S50000x512.size a
  hwx0_0 : ∀ i : grid0.Coords, EltTy.bits .f32 = 32 ∨ (Rect.block (s := S50000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .bf16 = 32 ∨ (Rect.block (s := S50000x128) S5000x128.size (cc0_transform_2 i) (hinb0_2 i)).WholeWords (EltTy.packing .bf16)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000_S1600000x1_S1600000_n_0_n_n_0_1_1 : GatherDims S50000 S1600000x1 S1600000 where
  offsetDims := []
  collapsedSliceDims := [0]
  operandBatchingDims := []
  startIndicesBatchingDims := []
  startIndexMap := [0]
  indexVectorDim := 1
  sliceSizes := ![1]
  wf := gather_S50000_S1600000x1_S1600000_n_0_n_n_0_1_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S1600000x1_S1600000x1_1_0_n_n_0_1_11 : GatherDims S50000x1 S1600000x1 S1600000x1 where
  offsetDims := [1]
  collapsedSliceDims := [0]
  operandBatchingDims := []
  startIndicesBatchingDims := []
  startIndexMap := [0]
  indexVectorDim := 1
  sliceSizes := ![1, 1]
  wf := gather_S50000x1_S1600000x1_S1600000x1_1_0_n_n_0_1_11_wf
def scatter_S50000x1_S1600000x1_S1600000x1_1_0_0_1 : ScatterDims S50000x1 S1600000x1 S1600000x1 where
  updateWindowDims := [1]
  insertedWindowDims := [0]
  scatterDimsToOperandDims := [0]
  indexVectorDim := 1
  wf := scatter_S50000x1_S1600000x1_S1600000x1_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S512x128 : Shape := ⟨2, ![512, 128]⟩
abbrev S128 : Shape := ⟨1, ![128]⟩
abbrev S128x1 : Shape := ⟨2, ![128, 1]⟩
abbrev S1 : Shape := ⟨1, ![1]⟩
abbrev S1x1600000 : Shape := ⟨2, ![1, 1600000]⟩
abbrev S1600000 : Shape := ⟨1, ![1600000]⟩
abbrev S50000 : Shape := ⟨1, ![50000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x1 : Shape := ⟨2, ![50000, 1]⟩
abbrev S1x1 : Shape := ⟨2, ![1, 1]⟩

abbrev nBuf : Space → Nat
  | .hbm => 127
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x1600000, .i32⟩
  | .hbm, ⟨2, _⟩ => ⟨S512x128, .f32⟩
  | .hbm, ⟨3, _⟩ => ⟨S128, .f32⟩
  | .hbm, ⟨4, _⟩ => ⟨S128x1, .f32⟩
  | .hbm, ⟨5, _⟩ => ⟨S1, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S50000, .i32⟩
  | .hbm, ⟨11, _⟩ => ⟨S1650000, .i32⟩
  | .hbm, ⟨12, _⟩ => ⟨S1650000, .i32⟩
  | .hbm, ⟨13, _⟩ => ⟨S_, .f32⟩
  | .hbm, ⟨14, _⟩ => ⟨S1650000, .f32⟩
  | .hbm, ⟨15, _⟩ => ⟨S_, .f32⟩
  | .hbm, ⟨16, _⟩ => ⟨S50000, .f32⟩
  | .hbm, ⟨17, _⟩ => ⟨S1650000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .i32⟩
  | .hbm, ⟨27, _⟩ => ⟨S1650000, .i32⟩
  | .hbm, ⟨28, _⟩ => ⟨S1650000, .i1⟩
  | .hbm, ⟨29, _⟩ => ⟨S_, .i32⟩
  | .hbm, ⟨30, _⟩ => ⟨S1650000, .i32⟩
  | .hbm, ⟨31, _⟩ => ⟨S1650000, .i32⟩
  | .hbm, ⟨32, _⟩ => ⟨S1650000, .i32⟩
  | .hbm, ⟨33, _⟩ => ⟨S1650000x1, .i32⟩
  | .hbm, ⟨34, _⟩ => ⟨S1650000, .f32⟩
  | .hbm, ⟨35, _⟩ => ⟨S_, .i32⟩
  | .hbm, ⟨36, _⟩ => ⟨S1650000, .i32⟩
  | .hbm, ⟨37, _⟩ => ⟨S1650000, .i1⟩
  | .hbm, ⟨38, _⟩ => ⟨S_, .i32⟩
  | .hbm, ⟨39, _⟩ => ⟨S1650000, .i32⟩
  | .hbm, ⟨40, _⟩ => ⟨S1650000, .i32⟩
  | .hbm, ⟨41, _⟩ => ⟨S1650000, .i32⟩
  | .hbm, ⟨42, _⟩ => ⟨S1650000x1, .i32⟩
  | .hbm, ⟨43, _⟩ => ⟨S1650000, .f32⟩
  | .hbm, ⟨44, _⟩ => ⟨S1650000, .f32⟩
  | .hbm, ⟨45, _⟩ => ⟨S50000x128, .f32⟩
  | .hbm, ⟨46, _⟩ => ⟨S1650000x1, .f32⟩
  | .hbm, ⟨47, _⟩ => ⟨S_, .i32⟩
  | .hbm, ⟨48, _⟩ => ⟨S1650000, .i32⟩
  | .hbm, ⟨49, _⟩ => ⟨S1650000, .i1⟩
  | .hbm, ⟨50, _⟩ => ⟨S_, .i32⟩
  | .hbm, ⟨51, _⟩ => ⟨S1650000, .i32⟩
  | .hbm, ⟨52, _⟩ => ⟨S1650000, .i32⟩
  | .hbm, ⟨53, _⟩ => ⟨S1650000, .i32⟩
  | .hbm, ⟨54, _⟩ => ⟨S1650000x1, .i32⟩
  | .hbm, ⟨55, _⟩ => ⟨S1650000x128, .f32⟩
  | .hbm, ⟨56, _⟩ => ⟨S1650000x128, .f32⟩
  | .hbm, ⟨57, _⟩ => ⟨S1650000x128, .f32⟩
  | .hbm, ⟨58, _⟩ => ⟨S_, .f32⟩
  | .hbm, ⟨59, _⟩ => ⟨S50000x128, .f32⟩
  | .hbm, ⟨60, _⟩ => ⟨S1650000x1, .i32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S1x1600000, .i32⟩
  | .hbm, ⟨69, _⟩ => ⟨S1600000, .i32⟩
  | .hbm, ⟨70, _⟩ => ⟨S1x1600000, .i32⟩
  | .hbm, ⟨71, _⟩ => ⟨S1600000, .i32⟩
  | .hbm, ⟨72, _⟩ => ⟨S50000, .i32⟩
  | .hbm, ⟨73, _⟩ => ⟨S1650000, .i32⟩
  | .hbm, ⟨74, _⟩ => ⟨S1650000, .i32⟩
  | .hbm, ⟨75, _⟩ => ⟨S_, .f32⟩
  | .hbm, ⟨76, _⟩ => ⟨S1650000, .f32⟩
  | .hbm, ⟨77, _⟩ => ⟨S_, .f32⟩
  | .hbm, ⟨78, _⟩ => ⟨S50000, .f32⟩
  | .hbm, ⟨79, _⟩ => ⟨S1650000x1, .i32⟩
  | .hbm, ⟨80, _⟩ => ⟨S50000, .f32⟩
  | .hbm, ⟨81, _⟩ => ⟨S_, .f32⟩
  | .hbm, ⟨82, _⟩ => ⟨S50000, .f32⟩
  | .hbm, ⟨83, _⟩ => ⟨S50000, .i1⟩
  | .hbm, ⟨84, _⟩ => ⟨S50000, .f32⟩
  | .hbm, ⟨85, _⟩ => ⟨S_, .f32⟩
  | .hbm, ⟨86, _⟩ => ⟨S50000, .f32⟩
  | .hbm, ⟨87, _⟩ => ⟨S50000, .f32⟩
  | .hbm, ⟨88, _⟩ => ⟨S_, .i32⟩
  | .hbm, ⟨89, _⟩ => ⟨S1650000, .i32⟩
  | .hbm, ⟨90, _⟩ => ⟨S1650000, .i1⟩
  | .hbm, ⟨91, _⟩ => ⟨S_, .i32⟩
  | .hbm, ⟨92, _⟩ => ⟨S1650000, .i32⟩
  | .hbm, ⟨93, _⟩ => ⟨S1650000, .i32⟩
  | .hbm, ⟨94, _⟩ => ⟨S1650000, .i32⟩
  | .hbm, ⟨95, _⟩ => ⟨S1650000x1, .i32⟩
  | .hbm, ⟨96, _⟩ => ⟨S1650000, .f32⟩
  | .hbm, ⟨97, _⟩ => ⟨S_, .i32⟩
  | .hbm, ⟨98, _⟩ => ⟨S1650000, .i32⟩
  | .hbm, ⟨99, _⟩ => ⟨S1650000, .i1⟩
  | .hbm, ⟨100, _⟩ => ⟨S_, .i32⟩
  | .hbm, ⟨101, _⟩ => ⟨S1650000, .i32⟩
  | .hbm, ⟨102, _⟩ => ⟨S1650000, .i32⟩
  | .hbm, ⟨103, _⟩ => ⟨S1650000, .i32⟩
  | .hbm, ⟨104, _⟩ => ⟨S1650000x1, .i32⟩
  | .hbm, ⟨105, _⟩ => ⟨S1650000, .f32⟩
  | .hbm, ⟨106, _⟩ => ⟨S1650000, .f32⟩
  | .hbm, ⟨107, _⟩ => ⟨S50000x1, .f32⟩
  | .hbm, ⟨108, _⟩ => ⟨S1650000x1, .f32⟩
  | .hbm, ⟨109, _⟩ => ⟨S_, .i32⟩
  | .hbm, ⟨110, _⟩ => ⟨S1650000, .i32⟩
  | .hbm, ⟨111, _⟩ => ⟨S1650000, .i1⟩
  | .hbm, ⟨112, _⟩ => ⟨S_, .i32⟩
  | .hbm, ⟨113, _⟩ => ⟨S1650000, .i32⟩
  | .hbm, ⟨114, _⟩ => ⟨S1650000, .i32⟩
  | .hbm, ⟨115, _⟩ => ⟨S1650000, .i32⟩
  | .hbm, ⟨116, _⟩ => ⟨S1650000x1, .i32⟩
  | .hbm, ⟨117, _⟩ => ⟨S1650000x1, .f32⟩
  | .hbm, ⟨118, _⟩ => ⟨S1650000x1, .f32⟩
  | .hbm, ⟨119, _⟩ => ⟨S_, .f32⟩
  | .hbm, ⟨120, _⟩ => ⟨S50000x1, .f32⟩
  | .hbm, ⟨121, _⟩ => ⟨S1650000x1, .i32⟩
  | .hbm, ⟨122, _⟩ => ⟨S50000x1, .f32⟩
  | .hbm, ⟨123, _⟩ => ⟨S1x1, .f32⟩
  | .hbm, ⟨124, _⟩ => ⟨S50000x1, .f32⟩
  | .hbm, ⟨125, _⟩ => ⟨S50000x1, .f32⟩
  | .hbm, ⟨126, _⟩ => ⟨S50000, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_4 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_6 : Ref sig .tc := ⟨.hbm, 47, rfl⟩
abbrev main_v32 : Ref sig .tc := ⟨.hbm, 48, rfl⟩
abbrev main_v33 : Ref sig .tc := ⟨.hbm, 49, rfl⟩
abbrev main_c_7 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_11 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_call2_v0 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_c_14 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_15 : Ref sig .tc := ⟨.hbm, 97, rfl⟩
abbrev main_v70 : Ref sig .tc := ⟨.hbm, 98, rfl⟩
abbrev main_v71 : Ref sig .tc := ⟨.hbm, 99, rfl⟩
abbrev main_c_16 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_c_17 : Ref sig .tc := ⟨.hbm, 109, rfl⟩
abbrev main_v80 : Ref sig .tc := ⟨.hbm, 110, rfl⟩
abbrev main_v81 : Ref sig .tc := ⟨.hbm, 111, rfl⟩
abbrev main_c_18 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_cst_19 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S50000_S1650000_d0 : Shape.Concatenates [S1600000, S50000] S1650000 0
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x1 : S_.BroadcastsInDim S50000x1 (![] : Fin 0 → Fin S50000x1.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  shapeCasts_S50000x1_S50000 : S50000x1.ShapeCasts S50000
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x512_S512x128_S50000x128_1_0_0_1_n_n_wf : DotDims.WF S50000x512 S512x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x1_S50000x1_1_0_0_1_n_n_wf : DotDims.WF S50000x128 S128x1 S50000x1 [1] [0] [0] [1] [] []
  gather_S50000x1_S1650000x1_S1650000x1_1_0_n_n_0_1_11_wf : GatherDims.WF S50000x1 S1650000x1 S1650000x1 [1] [0] [] [0] [] 1 ![1, 1]
  scatter_S50000x1_S1650000x1_S1650000x1_1_0_0_1_wf : ScatterDims.WF S50000x1 S1650000x1 S1650000x1 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x1_S50000x1_1_0_0_1_n_n : DotDims S50000x128 S128x1 S50000x1 where
  lhsContracting := [1]
  rhsContracting := [0]
  lhsNonContracting := [0]
  rhsNonContracting := [1]
  lhsBatch := []
  rhsBatch := []
  wf := dot_S50000x128_S128x1_S50000x1_1_0_0_1_n_n_wf
def gather_S50000x1_S1650000x1_S1650000x1_1_0_n_n_0_1_11 : GatherDims S50000x1 S1650000x1 S1650000x1 where
  offsetDims := [1]
  collapsedSliceDims := [0]
  operandBatchingDims := []
  startIndicesBatchingDims := []
  startIndexMap := [0]
  indexVectorDim := 1
  sliceSizes := ![1, 1]
  wf := gather_S50000x1_S1650000x1_S1650000x1_1_0_n_n_0_1_11_wf
def scatter_S50000x1_S1650000x1_S1650000x1_1_0_0_1 : ScatterDims S50000x1 S1650000x1 S1650000x1 where
  updateWindowDims := [1]
  insertedWindowDims := [0]
  scatterDimsToOperandDims := [0]
  indexVectorDim := 1
  wf := scatter_S50000x1_S1650000x1_S1650000x1_1_0_0_1_wf

class Facts : Prop extends Facts₀ where

variable [Facts]
-- ==== Proof.LibIndexed.lean ====
/-
  Rows taken and rows accumulated by run-time indices, entry by entry.

  Taking rows of a matrix by an integer column of indices reads, at result entry (r, c), the matrix at row
  "index r, read as a signed integer and clamped into the matrix's rows" and column c; taking entries of a
  flat array is the same without the column. Accumulating rows into a matrix by an integer column of indices
  adds update entry (r, c) to entry (index r, c) of the matrix when index r, read as a signed integer and NOT
  clamped, is one of the matrix's rows, and drops it otherwise; so on the extended reals every entry of the
  result is the entry it had plus the sum of the update entries whose index names its row.
-/
import Idealize.ShloMosaic.Lib.ValueIdx
import Idealize.ShloMosaic.Lib.Pipeline.Value
import Idealize.ShloMosaic.PureOps.Ideal.Laws

noncomputable section

open scoped BigOperators

namespace Cert.Indexed

open Idealize.ShloMosaic Idealize.ShloMosaic.ValueIdx

variable {α : Type}

/-- A word read as a signed integer and clamped into the rows 0 … N − 1. -/
def clampRow (N : Nat) (hN : 0 < N) {w : Nat} (v : BitVec w) : Fin N := ⟨min v.toInt.toNat (N - 1), by omega⟩

/-- A word, read as a signed integer and not clamped, names the row i. -/
def Names {N w : Nat} (v : BitVec w) (i : Fin N) : Prop := v.toInt = (i.val : ℤ)

instance {N w : Nat} (v : BitVec w) (i : Fin N) : Decidable (Names v i) := by unfold Names; infer_instance

/-! ## Taking entries of a flat array -/

/-- The dimension numbers of x[idx] for a flat array of N entries and a column of M indices. -/
abbrev flatGather (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- Entry r of the taken array is the array at index r, clamped. -/
theorem flatGather_apply {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (y : (⟨1, ![M]⟩ : Shape).Idx) :
    Host.gather (flatGather N M wf) x idx y = x (ix1 (clampRow N hN (idx (ix2 (y 0) (0 : Fin 1))))) := by
  unfold Host.gather
  congr 1
  funext a
  obtain rfl : a = 0 := Subsingleton.elim _ _
  refine Fin.ext ?_
  show (flatGather N M wf).start y idx 0 + (flatGather N M wf).batchCoord y 0 + (flatGather N M wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatGather N M wf).startIndexMap from List.mem_singleton.mpr rfl)]
  have hsi : (flatGather N M wf).siIdx y ⟨List.idxOf (0 : Fin 1) (flatGather N M wf).startIndexMap,
      List.idxOf_lt_length_iff.2 (List.mem_singleton.mpr rfl)⟩ = ix2 (y 0) (0 : Fin 1) := by
    funext b; refine Fin.ext ?_
    match b with
    | ⟨0, _⟩ => rfl
    | ⟨1, _⟩ => rfl
  rw [hsi]
  rfl

/-! ## Taking rows of a matrix -/

/-- The dimension numbers of x[idx] for a matrix of N rows of C and a column of M indices. -/
abbrev rowGather (N C M : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- Entry (r, c) of the taken rows is the matrix at row "index r, clamped" and column c. -/
theorem rowGather_apply {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (y : (⟨2, ![M, C]⟩ : Shape).Idx) :
    Host.gather (rowGather N C M wf) x idx y = x (ix2 (clampRow N hN (idx (ix2 (y 0) (0 : Fin 1)))) (y 1)) := by
  unfold Host.gather
  congr 1
  funext a
  refine Fin.ext ?_
  have key : ∀ a : Fin 2, (rowGather N C M wf).start y idx a + (rowGather N C M wf).batchCoord y a
      + (rowGather N C M wf).offCoord y a = ((ix2 (clampRow N hN (idx (ix2 (y 0) (0 : Fin 1)))) (y 1) :
        (⟨2, ![N, C]⟩ : Shape).Idx) a).val := by
    refine Fin.forall_fin_two.2 ⟨?_, ?_⟩
    · rw [GatherDims.batchCoord_eq_zero _ _ _ List.not_mem_nil,
        GatherDims.offCoord_eq_zero _ _ _ (fun h => ((GatherDims.mem_sKept _ _).mp h).1 (List.mem_singleton.mpr rfl))]
      simp only [Nat.add_zero]
      unfold GatherDims.start
      rw [dif_pos (show (0 : Fin 2) ∈ (rowGather N C M wf).startIndexMap from List.mem_singleton.mpr rfl)]
      have hsi : (rowGather N C M wf).siIdx y ⟨List.idxOf (0 : Fin 2) (rowGather N C M wf).startIndexMap,
          List.idxOf_lt_length_iff.2 (List.mem_singleton.mpr rfl)⟩ = ix2 (y 0) (0 : Fin 1) := by
        funext b; refine Fin.ext ?_
        match b with
        | ⟨0, _⟩ => rfl
        | ⟨1, _⟩ => rfl
      rw [hsi]
      rfl
    · rw [GatherDims.batchCoord_eq_zero _ _ _ List.not_mem_nil]
      unfold GatherDims.start
      rw [dif_neg (show (1 : Fin 2) ∉ ([0] : List (Fin 2)) from by decide)]
      simp only [Nat.add_zero, Nat.zero_add]
      unfold GatherDims.offCoord
      rw [dif_pos ((GatherDims.mem_sKept (rowGather N C M wf) 1).mpr ⟨(show (1 : Fin 2) ∉ ([0] : List (Fin 2)) from by decide), List.not_mem_nil⟩)]
      rfl
  exact key a

/-! ## Sums over the entries of a column and of a matrix, by coordinates -/

/-- A flat index set is its one coordinate's range. -/
def idxEquiv1 {n : Nat} : (⟨1, ![n]⟩ : Shape).Idx ≃ Fin n where
  toFun i := i 0
  invFun r := ix1 r
  left_inv i := (eq_ix1 i).symm
  right_inv _ := rfl

/-- A sum over a flat index set is the sum over its coordinate. -/
theorem sum_idx1 {A : Type*} [AddCommMonoid A] {n : Nat} (f : (⟨1, ![n]⟩ : Shape).Idx → A) :
    ∑ i, f i = ∑ r : Fin n, f (ix1 r) := by
  rw [← Equiv.sum_comp (idxEquiv1 (n := n)).symm f]; rfl

/-- The flat entries whose coordinate satisfies P, summed: the sum over the coordinates that satisfy P. -/
theorem sum_filter_idx1 {A : Type*} [AddCommMonoid A] {n : Nat} (P : Fin n → Prop) [DecidablePred P]
    [DecidablePred fun j : (⟨1, ![n]⟩ : Shape).Idx => P (j 0)] (f : (⟨1, ![n]⟩ : Shape).Idx → A) :
    ∑ j ∈ Finset.univ.filter (fun j : (⟨1, ![n]⟩ : Shape).Idx => P (j 0)), f j
      = ∑ r ∈ Finset.univ.filter P, f (ix1 r) := by
  rw [Finset.sum_filter, Finset.sum_filter, sum_idx1]
  exact Finset.sum_congr rfl fun r _ => by congr

/-- The entries of a matrix in column c whose row satisfies P, summed: the sum over the rows that satisfy P. -/
theorem sum_filter_idx2 {A : Type*} [AddCommMonoid A] {n C : Nat} (P : Fin n → Prop) [DecidablePred P] (c : Fin C)
    [DecidablePred fun j : (⟨2, ![n, C]⟩ : Shape).Idx => P (j 0) ∧ (j 1).val = c.val] (f : (⟨2, ![n, C]⟩ : Shape).Idx → A) :
    ∑ j ∈ Finset.univ.filter (fun j : (⟨2, ![n, C]⟩ : Shape).Idx => P (j 0) ∧ (j 1).val = c.val), f j
      = ∑ r ∈ Finset.univ.filter P, f (ix2 r c) := by
  rw [Finset.sum_filter, Finset.sum_filter, sum_idx2]
  refine Finset.sum_congr rfl fun r _ => ?_
  have e : ∀ b : Fin C, (P ((ix2 r b : (⟨2, ![n, C]⟩ : Shape).Idx) 0)
      ∧ ((ix2 r b : (⟨2, ![n, C]⟩ : Shape).Idx) 1).val = c.val) ↔ (P r ∧ b = c) :=
    fun b => ⟨fun h => ⟨h.1, Fin.ext h.2⟩, fun h => ⟨h.1, congrArg Fin.val h.2⟩⟩
  simp only [e]
  by_cases hP : P r
  · simp [hP]
  · simp [hP]

/-! ## Accumulating entries into a flat array -/

/-- The dimension numbers of x.at[idx].add(u) for a flat array of N entries and a column of M indices. -/
abbrev flatScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update entry r lands on entry i exactly when index r names i. -/
theorem flatScatter_lands {N M w : Nat} (wf : ScatterDims.WF ⟨1, ![N]⟩ ⟨2, ![M, 1]⟩ ⟨1, ![M]⟩ [] [0] [0] 1)
    (idx : IVec ⟨2, ![M, 1]⟩ w) (j : (⟨1, ![M]⟩ : Shape).Idx) (i : (⟨1, ![N]⟩ : Shape).Idx) :
    (flatScatter N M wf).resultIdx? j idx = some i ↔ Names (idx (ix2 (j 0) (0 : Fin 1))) (i 0) := by
  have hs : (flatScatter N M wf).start j idx 0 = (idx (ix2 (j 0) (0 : Fin 1))).toInt := by
    unfold ScatterDims.start
    rw [dif_pos (show (0 : Fin 1) ∈ ([0] : List (Fin 1)) from List.mem_singleton.mpr rfl)]
    have hsi : (flatScatter N M wf).siIdx j ⟨List.idxOf (0 : Fin 1) (flatScatter N M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hw : (flatScatter N M wf).window j 0 = 0 := by
    unfold ScatterDims.window
    rw [dif_neg (by simp [ScatterDims.sKept, Shape.kept])]
  have hi : (i 0).val < N := (i 0).isLt
  have hsz : ((⟨1, ![N]⟩ : Shape).size 0 : ℤ) = (N : ℤ) := rfl
  unfold ScatterDims.resultIdx?
  split
  · rename_i h
    have h0 := h 0
    rw [hs, hw] at h0
    constructor
    · intro e
      have e0 : ((flatScatter N M wf).start j idx 0 + ((flatScatter N M wf).window j 0 : ℤ)).toNat = (i 0).val :=
        congrArg (fun f : (⟨1, ![N]⟩ : Shape).Idx => (f 0).val) (Option.some.inj e)
      rw [hs, hw] at e0
      unfold Names; omega
    · intro hn
      refine congrArg some (funext fun a => ?_)
      obtain rfl : a = 0 := Subsingleton.elim _ _
      refine Fin.ext ?_
      show ((flatScatter N M wf).start j idx 0 + ((flatScatter N M wf).window j 0 : ℤ)).toNat = (i 0).val
      rw [hs, hw]; unfold Names at hn; omega
  · rename_i h
    constructor
    · intro e; cases e
    · intro hn
      exfalso; apply h; intro a
      obtain rfl : a = 0 := Subsingleton.elim _ _
      rw [hs, hw, hsz]
      unfold Names at hn
      constructor <;> omega

/-- On the extended reals: entry i of the result is the entry it had plus the sum of the updates whose index names i. -/
theorem flatScatterAdd_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : (⟨1, ![N]⟩ : Shape).Idx) :
    Ideal.hostScatterAdd (flatScatter N M wf) x idx upd i
      = x i + ∑ r ∈ Finset.univ.filter (fun r : Fin M => Names (idx (ix2 r (0 : Fin 1))) (i 0)), upd (ix1 r) := by
  unfold Ideal.hostScatterAdd
  congr 1
  rw [Finset.filter_congr (fun j _ => flatScatter_lands wf idx j i)]
  exact sum_filter_idx1 (fun r : Fin M => Names (idx (ix2 r (0 : Fin 1))) (i 0)) upd

/-! ## Accumulating rows into a matrix -/

/-- The dimension numbers of x.at[idx].add(u) for a matrix of N rows of C and a column of M indices. -/
abbrev rowScatter (N C M : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- Update entry (r, c) lands on entry (i, c') exactly when index r names i and c is c'. -/
theorem rowScatter_lands {N C M w : Nat} (wf : ScatterDims.WF ⟨2, ![N, C]⟩ ⟨2, ![M, 1]⟩ ⟨2, ![M, C]⟩ [1] [0] [0] 1)
    (idx : IVec ⟨2, ![M, 1]⟩ w) (j : (⟨2, ![M, C]⟩ : Shape).Idx) (i : (⟨2, ![N, C]⟩ : Shape).Idx) :
    (rowScatter N C M wf).resultIdx? j idx = some i
      ↔ Names (idx (ix2 (j 0) (0 : Fin 1))) (i 0) ∧ (j 1).val = (i 1).val := by
  have hs0 : (rowScatter N C M wf).start j idx 0 = (idx (ix2 (j 0) (0 : Fin 1))).toInt := by
    unfold ScatterDims.start
    rw [dif_pos (show (0 : Fin 2) ∈ ([0] : List (Fin 2)) from List.mem_singleton.mpr rfl)]
    have hsi : (rowScatter N C M wf).siIdx j ⟨List.idxOf (0 : Fin 2) (rowScatter N C M wf).scatterDimsToOperandDims,
        List.idxOf_lt_length_iff.2 (List.mem_singleton.mpr rfl)⟩ = ix2 (j 0) (0 : Fin 1) := by
      funext b; refine Fin.ext ?_
      match b with
      | ⟨0, _⟩ => rfl
      | ⟨1, _⟩ => rfl
    exact congrArg (fun k => (idx k).toInt) hsi
  have hs1 : (rowScatter N C M wf).start j idx 1 = 0 := by
    unfold ScatterDims.start
    rw [dif_neg (show (1 : Fin 2) ∉ ([0] : List (Fin 2)) from by decide)]
  have hw0 : (rowScatter N C M wf).window j 0 = 0 := by
    unfold ScatterDims.window
    rw [dif_neg (by simp [ScatterDims.sKept, Shape.kept])]
  have hw1 : (rowScatter N C M wf).window j 1 = (j 1).val := by
    unfold ScatterDims.window
    rw [dif_pos (by simp [ScatterDims.sKept, Shape.kept])]
    rfl
  have hi0 : (i 0).val < N := idx2_lt0 i
  have hi1 : (i 1).val < C := idx2_lt1 i
  have hj1 : (j 1).val < C := idx2_lt1 j
  have hsz0 : ((⟨2, ![N, C]⟩ : Shape).size 0 : ℤ) = (N : ℤ) := rfl
  have hsz1 : ((⟨2, ![N, C]⟩ : Shape).size 1 : ℤ) = (C : ℤ) := rfl
  unfold ScatterDims.resultIdx?
  split
  · rename_i h
    have h0 := h 0
    have h1 := h 1
    rw [hs0, hw0] at h0
    rw [hs1, hw1] at h1
    constructor
    · intro e
      have e0 : ((rowScatter N C M wf).start j idx 0 + ((rowScatter N C M wf).window j 0 : ℤ)).toNat = (i 0).val :=
        congrArg (fun f : (⟨2, ![N, C]⟩ : Shape).Idx => (f 0).val) (Option.some.inj e)
      have e1 : ((rowScatter N C M wf).start j idx 1 + ((rowScatter N C M wf).window j 1 : ℤ)).toNat = (i 1).val :=
        congrArg (fun f : (⟨2, ![N, C]⟩ : Shape).Idx => (f 1).val) (Option.some.inj e)
      rw [hs0, hw0] at e0
      rw [hs1, hw1] at e1
      unfold Names; constructor <;> omega
    · rintro ⟨hn, hc⟩
      refine congrArg some (funext fun a => Fin.ext ?_)
      have key : ∀ a : Fin 2, ((rowScatter N C M wf).start j idx a + ((rowScatter N C M wf).window j a : ℤ)).toNat
          = (i a).val := by
        refine Fin.forall_fin_two.2 ⟨?_, ?_⟩
        · rw [hs0, hw0]; unfold Names at hn; omega
        · rw [hs1, hw1]; omega
      exact key a
  · rename_i h
    constructor
    · intro e; cases e
    · rintro ⟨hn, hc⟩
      exfalso; apply h
      unfold Names at hn
      refine Fin.forall_fin_two.2 ⟨?_, ?_⟩
      · rw [hs0, hw0, hsz0]; constructor <;> omega
      · rw [hs1, hw1, hsz1]; constructor <;> omega

/-- On the extended reals: entry (i, c) of the result is the entry it had plus the sum over the update rows whose index
    names i of their entry in column c. -/
theorem rowScatterAdd_apply {N C M w : Nat} (wf : ScatterDims.WF ⟨2, ![N, C]⟩ ⟨2, ![M, 1]⟩ ⟨2, ![M, C]⟩ [1] [0] [0] 1)
    (x : (⟨2, ![N, C]⟩ : Shape).Idx → EReal) (idx : IVec ⟨2, ![M, 1]⟩ w) (upd : (⟨2, ![M, C]⟩ : Shape).Idx → EReal)
    (p : Fin N) (c : Fin C) :
    Ideal.hostScatterAdd (rowScatter N C M wf) x idx upd (ix2 p c)
      = x (ix2 p c) + ∑ r ∈ Finset.univ.filter (fun r : Fin M => Names (idx (ix2 r (0 : Fin 1))) p), upd (ix2 r c) := by
  unfold Ideal.hostScatterAdd
  congr 1
  rw [Finset.filter_congr (fun j _ => rowScatter_lands wf idx j (ix2 p c))]
  exact sum_filter_idx2 (fun r : Fin M => Names (idx (ix2 r (0 : Fin 1))) p) c upd

/-! ## The same readings at an entry named by its coordinates -/

/-- Entry r of the taken array, r a coordinate. -/
theorem flatGather_at {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (r : Fin M) :
    Host.gather (flatGather N M wf) x idx (ix1 r) = x (ix1 (clampRow N hN (idx (ix2 r (0 : Fin 1))))) :=
  flatGather_apply hN wf x idx (ix1 r)

/-- Entry (r, c) of the taken rows, r and c coordinates. -/
theorem rowGather_at {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (r : Fin M) (c : Fin C) :
    Host.gather (rowGather N C M wf) x idx (ix2 r c) = x (ix2 (clampRow N hN (idx (ix2 r (0 : Fin 1)))) c) :=
  rowGather_apply hN wf x idx (ix2 r c)

/-- Entry i of the accumulated flat array, i a coordinate. -/
theorem flatScatterAdd_at {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (i : Fin N) :
    Ideal.hostScatterAdd (flatScatter N M wf) x idx upd (ix1 i)
      = x (ix1 i) + ∑ r ∈ Finset.univ.filter (fun r : Fin M => Names (idx (ix2 r (0 : Fin 1))) i), upd (ix1 r) :=
  flatScatterAdd_apply wf x idx upd (ix1 i)

end Cert.Indexed

end
-- ==== Proof.Gcn.lean ====
/-
  A graph-convolution aggregation with self-loops, on the extended reals.

  Every node i has a degree: one plus the number of edges whose destination names i. An edge (s, d) carries
  the weight dinv(s) · dinv(d), where dinv is any function of the nodes (here a function of the degree) and
  an index is read clamped into the nodes. The aggregate of a feature matrix at node i is the sum over the
  edges into i of weight · feature row of the source.

  Appending to the edge list one self-loop (i, i) per node changes the degree count from "edges into i, plus
  one" to "listed edges into i", and adds to the aggregate at node i exactly dinv(i) · dinv(i) · feature row i:
  the loops appended are in range, name distinct nodes, and a sum over the longer list splits into the sum
  over the original edges and the sum over the loops, of which one names i. Sums of extended reals may be
  regrouped freely (addition is commutative and associative there), so no finiteness is needed.
-/
import proofs.«169493_j27419071217926_2_alg».proof.Proof.LibIndexed

noncomputable section

open scoped BigOperators

namespace Cert.Gcn

open Idealize.ShloMosaic Idealize.ShloMosaic.ValueIdx Cert.Indexed

abbrev Sc : Shape := ⟨0, ![]⟩
abbrev V1 (n : ℕ) : Shape := ⟨1, ![n]⟩
abbrev M2 (a b : ℕ) : Shape := ⟨2, ![a, b]⟩

/-- The zero word and the word of 1.0, as extended reals (never evaluated: both sides carry the same words). -/
abbrev z : EReal := Ideal.ofBits .f32 0x00000000#32
abbrev one : EReal := Ideal.ofBits .f32 0x3F800000#32

variable {N M E C : ℕ}

/-! ## Words -/

/-- A negative index counts from the end: N is added to it. -/
def wrapW (N : ℕ) (w : BitVec 32) : BitVec 32 :=
  Scalar.select (IntOp.cmpi .slt w 0#32) (IntOp.addi w (BitVec.ofNat 32 N)) w

theorem toNat_ofNat_small {n : ℕ} (hn : n < 2 ^ 31) : (BitVec.ofNat 32 n).toNat = n := by
  rw [BitVec.toNat_ofNat]; exact Nat.mod_eq_of_lt (by omega)

theorem toInt_ofNat_small {n : ℕ} (hn : n < 2 ^ 31) : (BitVec.ofNat 32 n).toInt = (n : ℤ) := by
  rw [BitVec.toInt_eq_toNat_cond, toNat_ofNat_small hn]
  split <;> omega

/-- The word of a small natural names exactly that natural. -/
theorem names_ofNat (hN : N ≤ 2 ^ 31) (n i : Fin N) : Names (BitVec.ofNat 32 n.val) i ↔ n = i := by
  unfold Names
  rw [toInt_ofNat_small (by have := n.isLt; omega)]
  constructor
  · intro h; exact Fin.ext (by omega)
  · intro h; rw [h]

/-- The word of a small natural is not negative, so it is left as it is. -/
theorem wrapW_ofNat (hN : N ≤ 2 ^ 31) (n : Fin N) : wrapW N (BitVec.ofNat 32 n.val) = BitVec.ofNat 32 n.val := by
  unfold wrapW
  have h : IntOp.cmpi .slt (BitVec.ofNat 32 n.val) 0#32 = 0#1 := by
    unfold IntOp.cmpi
    have : (BitVec.ofNat 32 n.val).slt 0#32 = false := by
      rw [BitVec.slt, toInt_ofNat_small (by have := n.isLt; omega)]
      simp
    simp [this]
  rw [h]; exact select_zero _ _

/-- The word of a node, clamped into the nodes, is the node. -/
theorem clampRow_ofNat (hN0 : 0 < N) (hN : N ≤ 2 ^ 31) (n : Fin N) : clampRow N hN0 (BitVec.ofNat 32 n.val) = n := by
  unfold clampRow
  refine Fin.ext ?_
  show min (BitVec.ofNat 32 n.val).toInt.toNat (N - 1) = n.val
  rw [toInt_ofNat_small (by have := n.isLt; omega)]
  have := n.isLt
  omega

/-! ## Sums over a list and its appendix -/

/-- A filtered sum over E + N positions is the filtered sum over the first E plus that over the last N. -/
theorem sum_filter_add {A : Type*} [AddCommMonoid A] (E N : ℕ) (P : Fin (E + N) → Prop) [DecidablePred P]
    (f : Fin (E + N) → A) :
    ∑ r ∈ Finset.univ.filter P, f r
      = ∑ e ∈ Finset.univ.filter (fun e : Fin E => P (Fin.castAdd N e)), f (Fin.castAdd N e)
        + ∑ n ∈ Finset.univ.filter (fun n : Fin N => P (Fin.natAdd E n)), f (Fin.natAdd E n) := by
  rw [Finset.sum_filter, Finset.sum_filter, Finset.sum_filter, Fin.sum_univ_add]

/-- Of the appended loops exactly one names node p. -/
theorem sum_loops {A : Type*} [AddCommMonoid A] (hN : N ≤ 2 ^ 31) (p : Fin N) (g : Fin N → A) :
    ∑ n ∈ Finset.univ.filter (fun n : Fin N => Names (BitVec.ofNat 32 n.val) p), g n = g p := by
  rw [Finset.sum_filter]
  simp only [names_ofNat hN]
  simp

/-! ## The pieces of the computation, as the host operations spell them -/

/-- The side conditions of the operations over N nodes and a list of M edges. -/
structure EdgeFacts (N M : ℕ) : Prop where
  m0 : Sc.BroadcastsInDim (V1 M) (![] : Fin 0 → Fin (V1 M).rank)
  mcol : (V1 M).BroadcastsInDim (M2 M 1) (![0] : Fin 1 → Fin (M2 M 1).rank)
  fs : ScatterDims.WF (V1 N) (M2 M 1) (V1 M) [] [0] [0] 1
  fg : GatherDims.WF (V1 N) (M2 M 1) (V1 M) [] [0] [] [0] [] 1 ![1]
  n0 : Sc.BroadcastsInDim (V1 N) (![] : Fin 0 → Fin (V1 N).rank)

/-- The side conditions of the operations on a feature matrix of C columns. -/
structure RowFacts (N C M : ℕ) : Prop where
  rg : GatherDims.WF (M2 N C) (M2 M 1) (M2 M C) [1] [0] [] [0] [] 1 ![1, C]
  rs : ScatterDims.WF (M2 N C) (M2 M 1) (M2 M C) [1] [0] [0] 1
  nc0 : Sc.BroadcastsInDim (M2 N C) (![] : Fin 0 → Fin (M2 N C).rank)

/-- A flat array as a one-column matrix. -/
def col {α : Type} (h : (V1 M).BroadcastsInDim (M2 M 1) (![0] : Fin 1 → Fin (M2 M 1).rank)) (v : (V1 M).Idx → α) :
    (M2 M 1).Idx → α :=
  broadcastInDim (M2 M 1) ![0] h v

theorem col_apply {α : Type} (h : (V1 M).BroadcastsInDim (M2 M 1) (![0] : Fin 1 → Fin (M2 M 1).rank))
    (v : (V1 M).Idx → α) (r : Fin M) : col h v (ix2 r (0 : Fin 1)) = v (ix1 r) := by
  unfold col
  exact broadcastInDim_apply ![0] h v (ix2 r (0 : Fin 1)) (ix1 r) (fun ax => by
    match ax with
    | ⟨0, _⟩ =>
      show r.val = if M = 1 then 0 else r.val
      split
      · have := r.isLt; omega
      · rfl)

/-- The indices with the negative ones counted from the end. -/
def wrap (N : ℕ) (h : EdgeFacts N M) (v : IVec (V1 M) 32) : IVec (V1 M) 32 :=
  select (cmpi .slt v (broadcastInDim (V1 M) ![] h.m0 (constantI Sc 32 0#32)))
    (addi v (broadcastInDim (V1 M) ![] h.m0 (constantI Sc 32 (BitVec.ofNat 32 N)))) v

theorem wrap_apply (h : EdgeFacts N M) (v : IVec (V1 M) 32) (r : Fin M) : wrap N h v (ix1 r) = wrapW N (v (ix1 r)) := rfl

/-- The count of the listed edges into each node, accumulated into zeros. -/
def degEdges (h : EdgeFacts N M) (dst : IVec (V1 M) 32) : FVec Ideal (V1 N) .f32 :=
  Host.scatterAdd (F := Ideal) (flatScatter N M h.fs)
    (broadcastInDim (V1 N) ![] h.n0 (constant (F := Ideal) Sc .f32 0x00000000#32)) (col h.mcol dst)
    (broadcastInDim (V1 M) ![] h.m0 (constant (F := Ideal) Sc .f32 0x3F800000#32))

theorem degEdges_apply (h : EdgeFacts N M) (dst : IVec (V1 M) 32) (i : Fin N) :
    degEdges h dst (ix1 i) = z + ∑ r ∈ Finset.univ.filter (fun r : Fin M => Names (dst (ix1 r)) i), one := by
  unfold degEdges
  show Ideal.hostScatterAdd (flatScatter N M h.fs) _ (col h.mcol dst) _ (ix1 i) = _
  rw [flatScatterAdd_at]
  simp only [col_apply]
  rfl

/-- The normalisation of a degree vector: its reciprocal square root where it is positive, zero elsewhere. -/
def dinvOf (h0 : Sc.BroadcastsInDim (V1 N) (![] : Fin 0 → Fin (V1 N).rank)) (deg : FVec Ideal (V1 N) .f32) :
    FVec Ideal (V1 N) .f32 :=
  select (cmpf .ogt deg (broadcastInDim (V1 N) ![] h0 (constant (F := Ideal) Sc .f32 0x00000000#32))) (Host.rsqrt deg)
    (broadcastInDim (V1 N) ![] h0 (constant (F := Ideal) Sc .f32 0x00000000#32))

/-- The weight of each listed edge. -/
def normOf (h : EdgeFacts N M) (dinv : FVec Ideal (V1 N) .f32) (src dst : IVec (V1 M) 32) : FVec Ideal (V1 M) .f32 :=
  mulf (Host.gather (flatGather N M h.fg) dinv (col h.mcol (wrap N h src)))
    (Host.gather (flatGather N M h.fg) dinv (col h.mcol (wrap N h dst)))

theorem normOf_apply (hN0 : 0 < N) (h : EdgeFacts N M) (dinv : FVec Ideal (V1 N) .f32) (src dst : IVec (V1 M) 32)
    (r : Fin M) :
    normOf h dinv src dst (ix1 r)
      = dinv (ix1 (clampRow N hN0 (wrapW N (src (ix1 r))))) * dinv (ix1 (clampRow N hN0 (wrapW N (dst (ix1 r))))) := by
  unfold normOf
  rw [mulf_apply, flatGather_at hN0, flatGather_at hN0, col_apply, col_apply, wrap_apply, wrap_apply]

/-- The weighted feature rows of the sources, accumulated at the destinations into zeros. -/
def aggOf (h : EdgeFacts N M) (k : RowFacts N C M) (nb : FVec Ideal (M2 M C) .f32) (feat : FVec Ideal (M2 N C) .f32)
    (src dst : IVec (V1 M) 32) : FVec Ideal (M2 N C) .f32 :=
  Host.scatterAdd (F := Ideal) (rowScatter N C M k.rs)
    (broadcastInDim (M2 N C) ![] k.nc0 (constant (F := Ideal) Sc .f32 0x00000000#32)) (col h.mcol dst)
    (mulf nb (Host.gather (rowGather N C M k.rg) feat (col h.mcol (wrap N h src))))

theorem aggOf_apply (hN0 : 0 < N) (h : EdgeFacts N M) (k : RowFacts N C M) (nb : FVec Ideal (M2 M C) .f32)
    (feat : FVec Ideal (M2 N C) .f32) (src dst : IVec (V1 M) 32) (p : Fin N) (c : Fin C) :
    aggOf h k nb feat src dst (ix2 p c)
      = z + ∑ r ∈ Finset.univ.filter (fun r : Fin M => Names (dst (ix1 r)) p),
          nb (ix2 r c) * feat (ix2 (clampRow N hN0 (wrapW N (src (ix1 r)))) c) := by
  unfold aggOf
  show Ideal.hostScatterAdd (rowScatter N C M k.rs) _ (col h.mcol dst) _ (ix2 p c) = _
  rw [rowScatterAdd_apply]
  simp only [col_apply, mulf_apply, rowGather_at hN0, wrap_apply]
  rfl

/-- The edge list with one self-loop per node appended. -/
def cat (E N : ℕ) (hc : Shape.Concatenates [V1 E, V1 N] (V1 (E + N)) 0) (v : IVec (V1 E) 32) : IVec (V1 (E + N)) 32 :=
  concatenate (V1 (E + N)) 0 [⟨V1 E, v⟩, ⟨V1 N, iotaInDim (V1 N) 32 0⟩] hc

theorem cat_left (hc : Shape.Concatenates [V1 E, V1 N] (V1 (E + N)) 0) (v : IVec (V1 E) 32) (e : Fin E) :
    cat E N hc v (ix1 (Fin.castAdd N e)) = v (ix1 e) :=
  concatenate_pair_apply_left 0 v _ hc (ix1 (Fin.castAdd N e)) rfl (ix1 e) (fun b => by
    obtain rfl : b = 0 := Subsingleton.elim _ _
    rfl)

theorem cat_right (hc : Shape.Concatenates [V1 E, V1 N] (V1 (E + N)) 0) (v : IVec (V1 E) 32) (n : Fin N) :
    cat E N hc v (ix1 (Fin.natAdd E n)) = BitVec.ofNat 32 n.val :=
  concatenate_pair_apply_right 0 v (iotaInDim (V1 N) 32 0) hc (ix1 (Fin.natAdd E n)) rfl rfl (ix1 n)
    (fun b hb => absurd (Subsingleton.elim _ _) hb) (by show n.val + E = E + n.val; omega)

/-! ## The degree with the loops listed -/

/-- Counting the listed edges with the loops appended is counting the edges and adding one. -/
theorem deg_cat (hN : N ≤ 2 ^ 31) (hE : EdgeFacts N E) (hR : EdgeFacts N (E + N))
    (hc : Shape.Concatenates [V1 E, V1 N] (V1 (E + N)) 0) (dst : IVec (V1 E) 32) :
    degEdges hR (cat E N hc dst)
      = addf (degEdges hE dst) (broadcastInDim (V1 N) ![] hE.n0 (constant (F := Ideal) Sc .f32 0x3F800000#32)) := by
  funext i
  obtain ⟨p, rfl⟩ : ∃ p : Fin N, i = ix1 p := ⟨i 0, eq_ix1 i⟩
  rw [addf_apply, degEdges_apply, degEdges_apply, sum_filter_add]
  simp only [cat_left, cat_right]
  rw [sum_loops hN p (fun _ => one), add_assoc]
  rfl

/-! ## A layer with the loops listed -/

/-- Aggregating over the list with the loops appended is aggregating over the edges and adding each node's own
    feature row weighted by its own normalisation squared; the bias is added last on both sides. -/
theorem layer_cat (hN0 : 0 < N) (hN : N ≤ 2 ^ 31) (hE : EdgeFacts N E) (hR : EdgeFacts N (E + N))
    (kE : RowFacts N C E) (kR : RowFacts N C (E + N)) (hc : Shape.Concatenates [V1 E, V1 N] (V1 (E + N)) 0)
    (dinv : FVec Ideal (V1 N) .f32) (src dst : IVec (V1 E) 32)
    (nb : FVec Ideal (M2 E C) .f32) (nb' : FVec Ideal (M2 (E + N) C) .f32) (selfb feat bias : FVec Ideal (M2 N C) .f32)
    (hnb : ∀ e c, nb (ix2 e c) = normOf hE dinv src dst (ix1 e))
    (hnb' : ∀ r c, nb' (ix2 r c) = normOf hR dinv (cat E N hc src) (cat E N hc dst) (ix1 r))
    (hself : ∀ p c, selfb (ix2 p c) = dinv (ix1 p) * dinv (ix1 p)) :
    addf (aggOf hR kR nb' feat (cat E N hc src) (cat E N hc dst)) bias
      = addf (addf (aggOf hE kE nb feat src dst) (mulf selfb feat)) bias := by
  funext i
  obtain ⟨p, c, rfl⟩ : ∃ (p : Fin N) (c : Fin C), i = ix2 p c := ⟨i 0, i 1, eq_ix2 i⟩
  rw [addf_apply, addf_apply, addf_apply, mulf_apply, aggOf_apply hN0, aggOf_apply hN0, sum_filter_add]
  simp only [cat_left, cat_right, hnb, hnb', normOf_apply hN0, wrapW_ofNat hN, clampRow_ofNat hN0 hN, hself]
  rw [sum_loops hN p (fun n => dinv (ix1 n) * dinv (ix1 n) * feat (ix2 n c))]
  simp only [add_assoc]

/-! ## A column repeated along the feature columns -/

/-- A flat array as a column, repeated along C columns: entry (r, c) is the array's entry r. -/
theorem col_repeat_apply {α : Type} (h1 : (V1 M).BroadcastsInDim (M2 M 1) (![0] : Fin 1 → Fin (M2 M 1).rank))
    (h2 : (M2 M 1).BroadcastsInDim (M2 M C) (![0, 1] : Fin 2 → Fin (M2 M C).rank)) (v : (V1 M).Idx → α)
    (r : Fin M) (c : Fin C) :
    broadcastInDim (M2 M C) ![0, 1] h2 (broadcastInDim (M2 M 1) ![0] h1 v) (ix2 r c) = v (ix1 r) := by
  rw [broadcastInDim_apply ![0, 1] h2 _ (ix2 r c) (ix2 r (0 : Fin 1)) (fun ax => by
    match ax with
    | ⟨0, _⟩ =>
      show r.val = if M = 1 then 0 else r.val
      split
      · have := r.isLt; omega
      · rfl
    | ⟨1, _⟩ => rfl)]
  exact col_apply h1 v r

/-- A flat array as a column: entry (r, c), c the one column, is the array's entry r. -/
theorem col_apply1 {α : Type} (h : (V1 M).BroadcastsInDim (M2 M 1) (![0] : Fin 1 → Fin (M2 M 1).rank))
    (v : (V1 M).Idx → α) (r : Fin M) (c : Fin 1) : col h v (ix2 r c) = v (ix1 r) := by
  obtain rfl : c = 0 := Subsingleton.elim _ _
  exact col_apply h v r

/-- The normalisation squared as a column: entry (p, c) is dinv(p) · dinv(p). -/
theorem self_col_apply (h : (V1 N).BroadcastsInDim (M2 N 1) (![0] : Fin 1 → Fin (M2 N 1).rank))
    (d : FVec Ideal (V1 N) .f32) (p : Fin N) (c : Fin 1) :
    broadcastInDim (M2 N 1) ![0] h (mulf d d) (ix2 p c) = d (ix1 p) * d (ix1 p) := by
  rw [show broadcastInDim (M2 N 1) ![0] h (mulf d d) = col h (mulf d d) from rfl, col_apply1]
  rfl

/-- The normalisation squared as a column repeated along C columns: entry (p, c) is dinv(p) · dinv(p). -/
theorem self_repeat_apply (h1 : (V1 N).BroadcastsInDim (M2 N 1) (![0] : Fin 1 → Fin (M2 N 1).rank))
    (h2 : (M2 N 1).BroadcastsInDim (M2 N C) (![0, 1] : Fin 2 → Fin (M2 N C).rank))
    (d : FVec Ideal (V1 N) .f32) (p : Fin N) (c : Fin C) :
    broadcastInDim (M2 N C) ![0, 1] h2 (broadcastInDim (M2 N 1) ![0] h1 (mulf d d)) (ix2 p c) = d (ix1 p) * d (ix1 p) := by
  rw [col_repeat_apply]
  rfl

end Cert.Gcn

end
-- ==== Proof.KernelHost.lean ====
/-
  The kernel program's host side as a function of the matrix product the kernel leaves.

  Around its one kernel the program computes, on the host: the edge sources and destinations (the two rows of the
  edge array), each node's degree (edges into it, plus one for its own loop), the normalisation of the degrees, the
  weight of each edge; then, from the product h the kernel leaves: the first layer (edge aggregate, plus each node's
  own row weighted by its normalisation squared, plus the bias), its rectification, the product with the second
  weight column, and the second layer of the same form, flattened to one value per node.
-/
import proofs.«169493_j27419071217926_2_alg».proof.KernelIdeal
import proofs.«169493_j27419071217926_2_alg».proof.Proof.Gen.KernelIdeal
import proofs.«169493_j27419071217926_2_alg».proof.Proof.Gcn

noncomputable section

namespace Cert.KernelIdeal.HostSide

open Idealize.ShloMosaic Cert.KernelIdeal Cert.KernelIdeal.Gen

theorem kE : Cert.Gcn.EdgeFacts 50000 1600000 :=
  ⟨bcast_S_S1600000, bcast_S1600000_S1600000x1_0, scatter_S50000_S1600000x1_S1600000_n_0_0_1_wf,
    gather_S50000_S1600000x1_S1600000_n_0_n_n_0_1_1_wf, bcast_S_S50000⟩

theorem kR1 : Cert.Gcn.RowFacts 50000 128 1600000 :=
  ⟨gather_S50000x128_S1600000x1_S1600000x128_1_0_n_n_0_1_1128_wf, scatter_S50000x128_S1600000x1_S1600000x128_1_0_0_1_wf,
    bcast_S_S50000x128⟩

theorem kR2 : Cert.Gcn.RowFacts 50000 1 1600000 :=
  ⟨gather_S50000x1_S1600000x1_S1600000x1_1_0_n_n_0_1_11_wf, scatter_S50000x1_S1600000x1_S1600000x1_1_0_0_1_wf,
    bcast_S_S50000x1⟩

variable (ei : IVec S2x1600000 32)

/-- The edges' sources: row 0 of the edge array. -/
def src : IVec S1600000 32 :=
  shapeCast S1600000 (extractStridedSlice S1x1600000 ![0, 0] ei slices_S2x1600000_S1x1600000_0_0) shapeCasts_S1x1600000_S1600000

/-- The edges' destinations: row 1 of the edge array. -/
def dst : IVec S1600000 32 :=
  shapeCast S1600000 (extractStridedSlice S1x1600000 ![1, 0] ei slices_S2x1600000_S1x1600000_1_0) shapeCasts_S1x1600000_S1600000

/-- Each node's degree: the edges into it, plus one. -/
def deg : FVec Ideal S50000 .f32 :=
  addf (Cert.Gcn.degEdges kE (dst ei)) (broadcastInDim S50000 ![] bcast_S_S50000 (constant (F := Ideal) S_ .f32 0x3F800000#32))

/-- The normalisation of the degrees. -/
def dinv : FVec Ideal S50000 .f32 := Cert.Gcn.dinvOf bcast_S_S50000 (deg ei)

/-- The weight of each edge. -/
def norm : FVec Ideal S1600000 .f32 := Cert.Gcn.normOf kE (dinv ei) (src ei) (dst ei)

/-- The edge weights repeated along the 128 feature columns. -/
def nb1 : FVec Ideal S1600000x128 .f32 :=
  broadcastInDim S1600000x128 ![0, 1] bcast_S1600000x1_S1600000x128_0_1
    (broadcastInDim S1600000x1 ![0] bcast_S1600000_S1600000x1_0 (norm ei))

/-- Each node's normalisation squared, repeated along the 128 feature columns. -/
def self1 : FVec Ideal S50000x128 .f32 :=
  broadcastInDim S50000x128 ![0, 1] bcast_S50000x1_S50000x128_0_1
    (broadcastInDim S50000x1 ![0] bcast_S50000_S50000x1_0 (mulf (dinv ei) (dinv ei)))

/-- The first bias repeated along the nodes. -/
def bias1 (b1 : FVec Ideal S128 .f32) : FVec Ideal S50000x128 .f32 :=
  broadcastInDim S50000x128 ![0, 1] bcast_S1x128_S50000x128_0_1 (broadcastInDim S1x128 ![1] bcast_S128_S1x128_1 b1)

/-- The first layer before rectification. -/
def layer1 (h : FVec Ideal S50000x128 .f32) (b1 : FVec Ideal S128 .f32) : FVec Ideal S50000x128 .f32 :=
  addf (addf (Cert.Gcn.aggOf kE kR1 (nb1 ei) h (src ei) (dst ei)) (mulf (self1 ei) h)) (bias1 b1)

/-- The first layer rectified. -/
def hidden (h : FVec Ideal S50000x128 .f32) (b1 : FVec Ideal S128 .f32) : FVec Ideal S50000x128 .f32 :=
  maximumf (layer1 ei h b1) (broadcastInDim S50000x128 ![] bcast_S_S50000x128 (constant (F := Ideal) S_ .f32 0x00000000#32))

/-- Its product with the second weight column. -/
def proj (h : FVec Ideal S50000x128 .f32) (b1 : FVec Ideal S128 .f32) (W2 : FVec Ideal S128x1 .f32) : FVec Ideal S50000x1 .f32 :=
  Host.dotGeneral (F := Ideal) dot_S50000x128_S128x1_S50000x1_1_0_0_1_n_n none (hidden ei h b1) W2

/-- The edge weights as a column. -/
def nb2 : FVec Ideal S1600000x1 .f32 := broadcastInDim S1600000x1 ![0] bcast_S1600000_S1600000x1_0 (norm ei)

/-- Each node's normalisation squared as a column. -/
def self2 : FVec Ideal S50000x1 .f32 := broadcastInDim S50000x1 ![0] bcast_S50000_S50000x1_0 (mulf (dinv ei) (dinv ei))

/-- The second bias repeated along the nodes. -/
def bias2 (b2 : FVec Ideal S1 .f32) : FVec Ideal S50000x1 .f32 :=
  broadcastInDim S50000x1 ![0, 1] bcast_S1x1_S50000x1_0_1 (broadcastInDim S1x1 ![1] bcast_S1_S1x1_1 b2)

/-- The second layer, as a column. -/
def layer2 (f : FVec Ideal S50000x1 .f32) (b2 : FVec Ideal S1 .f32) : FVec Ideal S50000x1 .f32 :=
  addf (addf (Cert.Gcn.aggOf kE kR2 (nb2 ei) f (src ei) (dst ei)) (mulf (self2 ei) f)) (bias2 b2)

/-- The program's result from the product h the kernel leaves: one value per node. -/
def out (h : FVec Ideal S50000x128 .f32) (b1 : FVec Ideal S128 .f32) (W2 : FVec Ideal S128x1 .f32) (b2 : FVec Ideal S1 .f32) :
    FVec Ideal S50000 .f32 :=
  shapeCast S50000 (layer2 ei (proj ei h b1 W2) b2) shapeCasts_S50000x1_S50000

end Cert.KernelIdeal.HostSide

end
-- ==== Proof.KernelEntry.lean ====
/-
  What the kernel program's host operations before the kernel leave in the buffers the later operations read:
  the edges' sources and destinations, the nodes' normalisation, and the edges' weights, each as the function of
  the edge array that the host side's description names.
-/
import proofs.«169493_j27419071217926_2_alg».proof.Proof.Gen.KernelIdeal.Frame
import proofs.«169493_j27419071217926_2_alg».proof.Proof.KernelHost
import Idealize.ShloMosaic.Lib.StableHlo.Run
import Idealize.ShloMosaic.PureOps.Ideal

noncomputable section

namespace Cert.KernelIdeal.Entry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- The outlined select on any operands: the transports along the buffers' types are the identity. -/
theorem unwrap_where (A : (⟨S50000, .i1⟩ : BufTy).Contents (Elt Ideal)) (B : (⟨S50000, .f32⟩ : BufTy).Contents (Elt Ideal))
    (z0 : (⟨S_, .f32⟩ : BufTy).Contents (Elt Ideal)) :
    (TRef.of (sig := sig) (T := ⟨S50000, .f32⟩) main_v13).toBuf
      (select ((TRef.of (sig := sig) (T := ⟨S50000, .i1⟩) main_v11).ofBuf A)
        ((TRef.of (sig := sig) (T := ⟨S50000, .f32⟩) main_v12).ofBuf B)
        ((TRef.of (sig := sig) (T := ⟨S50000, .f32⟩) main_call0_v0).ofBuf
          ((TRef.of (sig := sig) (T := ⟨S50000, .f32⟩) main_call0_v0).toBuf
            (broadcastInDim S50000 ![] bcast_S_S50000
              ((TRef.of (sig := sig) (T := ⟨S_, .f32⟩) main_cst_3).ofBuf z0)))))
      = select A B (broadcastInDim S50000 ![] bcast_S_S50000 z0) := rfl

set_option maxHeartbeats 4000000 in
/-- The sources, when the kernel is entered. -/
theorem src (c : Dev nD) : V m c main_v1 = HostSide.src (m ((c.tc : Thread nD τ).loc main_arg1)) := by
  show StableHlo.after (List.flatten [hostOps0, hostOps0_1, hostOps0_2]) (fun b => m (c, b)) (Proc.devRef .tc main_v1) = _
  simp only [hostOps0, hostOps0_1, hostOps0_2, List.flatten_cons, List.flatten_nil, List.append_nil, List.cons_append,
    List.nil_append]
  after_results_simp <;> rfl

set_option maxHeartbeats 4000000 in
/-- The destinations, when the kernel is entered. -/
theorem dst (c : Dev nD) : V m c main_v3 = HostSide.dst (m ((c.tc : Thread nD τ).loc main_arg1)) := by
  show StableHlo.after (List.flatten [hostOps0, hostOps0_1, hostOps0_2]) (fun b => m (c, b)) (Proc.devRef .tc main_v3) = _
  simp only [hostOps0, hostOps0_1, hostOps0_2, List.flatten_cons, List.flatten_nil, List.append_nil, List.cons_append,
    List.nil_append]
  after_results_simp <;> rfl

set_option maxHeartbeats 4000000 in
/-- The nodes' normalisation, when the kernel is entered. -/
theorem dinv (c : Dev nD) : V m c main_v13 = HostSide.dinv (m ((c.tc : Thread nD τ).loc main_arg1)) := by
  show StableHlo.after (List.flatten [hostOps0, hostOps0_1, hostOps0_2]) (fun b => m (c, b)) (Proc.devRef .tc main_v13) = _
  simp only [hostOps0, hostOps0_1, hostOps0_2, List.flatten_cons, List.flatten_nil, List.append_nil, List.cons_append,
    List.nil_append]
  after_results_simp
  rw [unwrap_where]
  rfl

set_option maxHeartbeats 4000000 in
/-- The edges' weights, when the kernel is entered. -/
theorem norm (c : Dev nD) : V m c main_v28 = HostSide.norm (m ((c.tc : Thread nD τ).loc main_arg1)) := by
  show StableHlo.after (List.flatten [hostOps0, hostOps0_1, hostOps0_2]) (fun b => m (c, b)) (Proc.devRef .tc main_v28) = _
  simp only [hostOps0, hostOps0_1, hostOps0_2, List.flatten_cons, List.flatten_nil, List.append_nil, List.cons_append,
    List.nil_append]
  after_results_simp
  rw [unwrap_where]
  rfl

end Cert.KernelIdeal.Entry

end
-- ==== Proof.LibDense.lean ====
/-
  Dense layers on the extended reals, entry by entry.

  A matrix product is read at an entry as the sum over the contracted axis of the products of the
  operands' entries; an affine layer adds a bias row to every row of a product; the rectifier takes
  the maximum with zero. The vector unit's matrix product into a zero accumulator and the host's
  general dot product with one contracted axis are both this sum at every entry, so a layer computed
  block of rows by block of rows and a layer computed on the whole array are one function.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Dense

open Idealize.ShloMosaic Idealize.ShloMosaic.ValueIdx

variable {M K N : ℕ}

/-- A matrix of extended reals with `a` rows and `b` columns. -/
abbrev Mat (a b : ℕ) : Type := (⟨2, ![a, b]⟩ : Shape).Idx → EReal
/-- A row of `a` extended reals. -/
abbrev Row (a : ℕ) : Type := (⟨1, ![a]⟩ : Shape).Idx → EReal

/-- The matrix product: entry (r, c) is the sum over k of A(r, k) · W(k, c). -/
def mm (A : Mat M K) (W : Mat K N) : Mat M N := fun i => ∑ k : Fin K, A (ix2 (i 0) k) * W (ix2 k (i 1))

/-- An affine layer: the product plus the bias of the entry's column. -/
def affine (A : Mat M K) (W : Mat K N) (b : Row N) : Mat M N := fun i => mm A W i + b (ix1 (i 1))

/-- The rectifier: the maximum with zero, entry by entry. -/
def relu (X : Mat M N) : Mat M N := fun i => max (X i) 0

/-- The sum over the one contracted axis of a plain M×K by K×N product is the sum over `Fin K`. -/
theorem plain_sum (a : Mat M K) (b : Mat K N) (j : (⟨2, ![M, N]⟩ : Shape).Idx) :
    ∑ k : (DotDims.plain M K N).contr.Idx, a ((DotDims.plain M K N).lhsIdx j k) * b ((DotDims.plain M K N).rhsIdx j k)
      = mm a b j := by
  unfold mm
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => rfl
      | ⟨1, _⟩ => exact hk)
  have er : (DotDims.plain M K N).rhsIdx j ((contrEquiv1 (DotDims.plain M K N) K rfl rfl).symm k) = ix2 k (j 1) :=
    funext fun a => Fin.ext (by
      match a with
      | ⟨0, _⟩ => exact hk
      | ⟨1, _⟩ => rfl)
  exact congr (congrArg _ (congrArg a el)) (congrArg b er)

/-- The vector unit's plain matrix product into a zero accumulator is the product, entry by entry. -/
theorem matmul_plain_zero {φ₁ φ₂ : FTy} (prec : Option ContractPrecision) (a : FVec Ideal ⟨2, ![M, K]⟩ φ₁) (b : FVec Ideal ⟨2, ![K, N]⟩ φ₂) :
    matmul (DotDims.plain M K N) prec a b (constant (F := Ideal) ⟨2, ![M, N]⟩ .f32 0x00000000#32) = mm a b := by
  funext j
  simp only [matmul]
  rw [Ideal.matmul_constant_zero_apply]
  exact plain_sum a b j

/-- The host's plain general dot product is the product, entry by entry. -/
theorem dotGeneral_plain {φ₁ φ₂ : FTy} (a : FVec Ideal ⟨2, ![M, K]⟩ φ₁) (b : FVec Ideal ⟨2, ![K, N]⟩ φ₂) :
    Host.dotGeneral (F := Ideal) (DotDims.plain M K N) none a b = mm a b := by
  funext j
  simp only [Host.dotGeneral]
  rw [Ideal.dotGeneral_apply]
  exact plain_sum a b j

/-- A change of float format is the identity on the extended reals. -/
theorem truncf_id {s : Shape} {φ ψ : FTy} (a : FVec Ideal s φ) (h : ψ.bits < φ.bits) : (truncf ψ a h : FVec Ideal s ψ) = a := rfl

/-! ## A layer as the vector unit computes it on a block of rows -/

/-- An affine layer whose bias is stored as a one-row matrix. -/
def affine2 (A : Mat M K) (W : Mat K N) (b : Mat 1 N) : Mat M N := fun i => mm A W i + b (ix2 (0 : Fin 1) (i 1))

/-- The product into a zero accumulator plus the bias row broadcast over the rows. -/
theorem addf_matmul_broadcastTo {φ₁ φ₂ : FTy} (prec : Option ContractPrecision) (a : FVec Ideal ⟨2, ![M, K]⟩ φ₁)
    (w : FVec Ideal ⟨2, ![K, N]⟩ φ₂) (b : FVec Ideal ⟨2, ![1, N]⟩ .f32) (h : (⟨2, ![1, N]⟩ : Shape).Broadcasts ⟨2, ![M, N]⟩) :
    addf (matmul (DotDims.plain M K N) prec a w (constant (F := Ideal) ⟨2, ![M, N]⟩ .f32 0x00000000#32)) (broadcastTo ⟨2, ![M, N]⟩ b h)
      = affine2 a w b := by
  rw [matmul_plain_zero]
  funext i
  obtain ⟨p, q, rfl⟩ : ∃ (p : Fin M) (q : Fin N), i = ix2 p q := ⟨i 0, i 1, eq_ix2 i⟩
  show mm a w (ix2 p q) + broadcastTo ⟨2, ![M, N]⟩ b h (ix2 p q) = _
  rw [broadcastTo_1b_ab_apply]
  rfl

/-- The maximum with a splat of the zero word is the rectifier. -/
theorem maximumf_splat_zero (X : FVec Ideal ⟨2, ![M, N]⟩ .f32) :
    maximumf X (broadcast ⟨2, ![M, N]⟩ (Scalar.ofBits (F := Ideal) .f32 0x00000000#32)) = relu X := by
  funext i
  show max (X i) (Ideal.ofBits .f32 0x00000000#32) = max (X i) 0
  rw [Ideal.ofBits_zero_f32]

/-! ## A layer as the host computes it on the whole array -/

/-- The bias of an affine layer with its one-row form: the row read at its one row index. -/
theorem affine_eq_affine2 (A : Mat M K) (W : Mat K N) (b : Row N) (b2 : Mat 1 N)
    (hb : ∀ q : Fin N, b2 (ix2 (0 : Fin 1) q) = b (ix1 q)) : affine2 A W b2 = affine A W b := by
  funext i
  obtain ⟨p, q, rfl⟩ : ∃ (p : Fin M) (q : Fin N), i = ix2 p q := ⟨i 0, i 1, eq_ix2 i⟩
  show mm A W (ix2 p q) + b2 (ix2 (0 : Fin 1) q) = mm A W (ix2 p q) + b (ix1 q)
  rw [hb]

/-- The host's product plus the bias broadcast first to one row and then over the rows. -/
theorem addf_dotGeneral_broadcastInDim {φ₁ φ₂ : FTy} (a : FVec Ideal ⟨2, ![M, K]⟩ φ₁) (w : FVec Ideal ⟨2, ![K, N]⟩ φ₂)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) (DotDims.plain M K N) none a w)
        (broadcastInDim ⟨2, ![M, N]⟩ ![0, 1] h2 (broadcastInDim ⟨2, ![1, N]⟩ ![1] h1 b))
      = affine a w b := by
  rw [dotGeneral_plain]
  funext i
  obtain ⟨p, q, rfl⟩ : ∃ (p : Fin M) (q : Fin N), i = ix2 p q := ⟨i 0, i 1, eq_ix2 i⟩
  show mm a w (ix2 p q) + broadcastInDim ⟨2, ![M, N]⟩ ![0, 1] h2 (broadcastInDim ⟨2, ![1, N]⟩ ![1] h1 b) (ix2 p q) = mm a w (ix2 p q) + b (ix1 q)
  rw [broadcastInDim_apply ![0, 1] h2 _ (ix2 p q) (ix2 (0 : Fin 1) q) (fun ax => by
      match ax with
      | ⟨0, _⟩ => rfl
      | ⟨1, _⟩ =>
        show q.val = if N = 1 then 0 else q.val
        split
        · have := q.isLt; omega
        · rfl),
    broadcastInDim_apply ![1] h1 b (ix2 (0 : Fin 1) q) (ix1 q) (fun ax => by
      match ax with
      | ⟨0, _⟩ =>
        show q.val = if N = 1 then 0 else q.val
        split
        · have := q.isLt; omega
        · rfl)]

/-- The maximum with the zero scalar broadcast to the whole shape is the rectifier. -/
theorem maximumf_broadcastInDim_zero (X : FVec Ideal ⟨2, ![M, N]⟩ .f32)
    (h : (⟨0, ![]⟩ : Shape).BroadcastsInDim ⟨2, ![M, N]⟩ ![]) :
    maximumf X (broadcastInDim ⟨2, ![M, N]⟩ ![] h (constant (F := Ideal) ⟨0, ![]⟩ .f32 0x00000000#32)) = relu X := by
  funext i
  show max (X i) (broadcastInDim ⟨2, ![M, N]⟩ ![] h (constant (F := Ideal) ⟨0, ![]⟩ .f32 0x00000000#32) i) = max (X i) 0
  rw [broadcastInDim_apply ![] h _ i ix0 (fun ax => ax.elim0)]
  show max (X i) (Ideal.ofBits .f32 0x00000000#32) = max (X i) 0
  rw [Ideal.ofBits_zero_f32]

/-! ## Rows of a layer -/

/-- A layer on a block of rows is the layer on the whole array at those rows: entry (p, q) of the block's result is
    entry (ρ p, q) of the whole result when row p of the block is row ρ p of the array. -/
theorem mm_rows {M' : ℕ} (A : Mat M' K) (blk : Mat M K) (W : Mat K N) (ρ : Fin M → Fin M')
    (h : ∀ p k, blk (ix2 p k) = A (ix2 (ρ p) k)) (p : Fin M) (q : Fin N) :
    mm blk W (ix2 p q) = mm A W (ix2 (ρ p) q) := by
  unfold mm
  exact Finset.sum_congr rfl fun k _ => by rw [show (ix2 p q : (⟨2, ![M, N]⟩ : Shape).Idx) 0 = p from rfl, h p k]; rfl

/-- So a rectified affine layer on a block of rows, with the whole weight matrix and bias row, is the layer on the
    whole array at those rows. -/
theorem relu_affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    relu (affine2 blk W b) (ix2 p q) = relu (affine2 A W b) (ix2 (ρ p) q) := by
  show max (mm blk W (ix2 p q) + b (ix2 (0 : Fin 1) q)) 0 = max (mm A W (ix2 (ρ p) q) + b (ix2 (0 : Fin 1) q)) 0
  rw [mm_rows A blk W ρ h p q]

/-- The same without the rectifier. -/
theorem affine2_rows {M' : ℕ} (A : Mat M' K) (blk : Mat M K) (W : Mat K N) (b : Mat 1 N) (ρ : Fin M → Fin M')
    (h : ∀ p k, blk (ix2 p k) = A (ix2 (ρ p) k)) (p : Fin M) (q : Fin N) :
    affine2 blk W b (ix2 p q) = affine2 A W b (ix2 (ρ p) q) := by
  show mm blk W (ix2 p q) + b (ix2 (0 : Fin 1) q) = mm A W (ix2 (ρ p) q) + b (ix2 (0 : Fin 1) q)
  rw [mm_rows A blk W ρ h p q]

end Cert.Dense

end
-- ==== Proof.KernelBlocks.lean ====
/-
  The matrix product the kernel leaves.

  The kernel runs at ten grid points. At point t it loads rows 5000·t … 5000·t + 4999 of x (a 5000 × 512 block) and
  the whole of W1 (512 × 128), multiplies them into a zero accumulator, and stores the 5000 × 128 result as rows
  5000·t … 5000·t + 4999 of the output array. A row of a matrix product depends on the left factor's row only, so
  each point writes its rows of the product x · W1; the ten blocks of rows tile the 50000 rows (row r is in block
  r / 5000), so the output array ends as the whole product.
-/
import proofs.«169493_j27419071217926_2_alg».proof.Proof.Gen.KernelIdeal.Frame
import proofs.«169493_j27419071217926_2_alg».proof.Proof.LibDense
import Idealize.ShloMosaic.Lib.Pipeline.Value

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

theorem offsets_zero : (![0, 0] : Fin 2 → Nat) = fun _ => 0 := funext fun a => by fin_cases a <;> rfl

/-- The body's stored value is the product of its two loaded blocks (the format changes are the identity). -/
theorem stored_eq (x0 : Vec Ideal S5000x512 .f32) (x1 : Vec Ideal S512x128 .f32) :
    k0_pay1 (F := Ideal) x0 x1 = Cert.Dense.mm x0 x1 := by
  unfold k0_pay1
  funext j
  exact congrFun (Cert.Dense.matmul_plain_zero (M := 5000) (K := 512) (N := 128) (φ₁ := .bf16) (φ₂ := .bf16) none
    (truncf .bf16 x0 bitsLt_bf16_f32) (truncf .bf16 x1 bitsLt_bf16_f32)) j

/-- The printed index maps over the ten points: block t of x, the one block of W1, block t of the output. -/
theorem index_maps : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := Nat.lt_of_lt_of_eq t.isLt N_0

/-- Entry (p, k) of x's block at point t is entry (5000·t + p, k) of x. -/
theorem x_block (c : Dev nD) (t : Fin cfg0.N) (p : Fin 5000) (k : Fin 512) :
    iblk m c 0 t (ix2 p k) = V m c main_arg0 (ix2 (⟨t.val * 5000 + p.val, by have := point_lt t; omega⟩ : Fin 50000) k) := by
  show V m c main_arg0 (((cfg0.win 0).blk t).view.emb (ix2 p k)) = _
  refine congrArg (V m c main_arg0) (funext fun a => Fin.ext ?_)
  obtain ⟨e0, e1, -, -, -, -⟩ := index_maps t
  match a with
  | ⟨0, _⟩ => show win0_0.index t (0 : Fin 2) * 5000 + 1 * p.val = t.val * 5000 + p.val; omega
  | ⟨1, _⟩ => show win0_0.index t (1 : Fin 2) * 512 + 1 * k.val = k.val; omega

/-- W1's block at every point is W1. -/
theorem w_block (c : Dev nD) (t : Fin cfg0.N) (k : Fin 512) (q : Fin 128) :
    iblk m c 1 t (ix2 k q) = V m c main_arg2 (ix2 k q) := by
  show V m c main_arg2 (((cfg0.win 1).blk t).view.emb (ix2 k q)) = _
  refine congrArg (V m c main_arg2) (funext fun a => Fin.ext ?_)
  obtain ⟨-, -, e2, e3, -, -⟩ := index_maps t
  match a with
  | ⟨0, _⟩ => show win0_1.index t (0 : Fin 2) * 512 + 1 * k.val = k.val; omega
  | ⟨1, _⟩ => show win0_1.index t (1 : Fin 2) * 128 + 1 * q.val = q.val; omega

/-- What point t writes back is its block of rows of the product x · W1. -/
theorem flushed_eq (c : Dev nD) (t : Fin cfg0.N) :
    (dats m 0 c).flushed 2 t
      = ((cfg0.win 2).blk t).view.read (Elt Ideal) (Cert.Dense.mm (V m c main_arg0) (V m c main_arg2)) := by
  show (cfg0.win 2).cut (grid0.coords t) ((dats m 0 c).after 2 t) = _
  rw [after0_2]
  unfold out0_2
  rw [View.canon_unit_zero offsets_zero]
  simp only [View.ld_unit_zero (S := S5000x512) offsets_zero, View.ld_unit_zero (S := S512x128) offsets_zero]
  rw [stored_eq]
  funext j
  obtain ⟨p, q, rfl⟩ : ∃ (p : Fin 5000) (q : Fin 128), j = ix2 p q := ⟨j 0, j 1, eq_ix2 j⟩
  obtain ⟨-, -, -, -, e4, e5⟩ := index_maps t
  have hrow : ((cfg0.win 2).blk t).view.emb (ix2 p q)
      = ix2 (⟨t.val * 5000 + p.val, by have := point_lt t; omega⟩ : Fin 50000) q := by
    funext a; apply Fin.ext
    match a with
    | ⟨0, _⟩ => show win0_2.index t (0 : Fin 2) * 5000 + 1 * p.val = t.val * 5000 + p.val; omega
    | ⟨1, _⟩ => show win0_2.index t (1 : Fin 2) * 128 + 1 * q.val = q.val; omega
  show Cert.Dense.mm (iblk m c 0 t) (iblk m c 1 t) (ix2 p q)
    = Cert.Dense.mm (V m c main_arg0) (V m c main_arg2) (((cfg0.win 2).blk t).view.emb (ix2 p q))
  rw [hrow]
  unfold Cert.Dense.mm
  refine Finset.sum_congr rfl fun k _ => ?_
  exact congrArg₂ (fun a b : EReal => a * b) (x_block m c t p k) (w_block m c t k q)

/-- An index of the output array is in point t's block iff each coordinate is in the block's range. -/
theorem mem_block (t : Fin cfg0.N) (i : S50000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- Every entry of the output array is in some point's block: row r in block r / 5000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have ht : (i 0).val / 5000 < cfg0.N := by rw [show cfg0.N = 10 from N_0]; omega
  refine ⟨⟨(i 0).val / 5000, ht⟩, flush0_2 _, ?_⟩
  rw [mem_block]
  obtain ⟨-, -, -, -, e4, e5⟩ := index_maps ⟨(i 0).val / 5000, ht⟩
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [e5]
    omega

/-- The output array after the run is the product x · W1 of the argument arrays. -/
theorem product (c : Dev nD) :
    (dats m 0 c).arrAt 2 cfg0.N
      = Cert.Dense.mm (m ((c : Thread nD τ).loc main_arg0)) (m ((c : Thread nD τ).loc main_arg2)) := by
  rw [← V_main_arg0 m c, ← V_main_arg2 m c]
  exact (dats m 0 c).arrAt_eq_of_cover 2 (Cert.Dense.mm (V m c main_arg0) (V m c main_arg2))
    (fun t _ => flushed_eq m c t) covered

end Cert.KernelIdeal.Blocks

end
-- ==== Proof.KernelTail.lean ====
/-
  The kernel program's run, read: the result buffer ends at the host side's function of the edge array, the
  product x · W1 the kernel leaves, the two biases and the second weight column; the arguments end unchanged.

  After the kernel the host operations read the kernel's output array (the product, by the blocks' tiling) and
  buffers written before the kernel (sources, destinations, normalisation, weights), which the kernel does not
  touch; their composition is the host side's description, operation for operation.
-/
import proofs.«169493_j27419071217926_2_alg».proof.Proof.KernelEntry
import proofs.«169493_j27419071217926_2_alg».proof.Proof.KernelBlocks

noncomputable section

namespace Cert.KernelIdeal.Tail

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- A buffer that is no array of the kernel's is, after the kernel, as the kernel found it. -/
theorem kept (c : Dev nD) (b : Ref sig .tc) (hb : ∀ w, Pipeline.arrRef spec0 w ≠ b) :
    Pipeline.withArrays (cfgs 0).spec c (V0 m c) (fun w => (dats m 0 c).arrAt w (cfgs 0).N) (Proc.devRef .tc b)
      = V m c b :=
  Pipeline.withArrays_of_ne _ c (V0 m c) _ b hb

/-- The kernel's output array after the kernel. -/
theorem written (c : Dev nD) :
    Pipeline.withArrays (cfgs 0).spec c (V0 m c) (fun w => (dats m 0 c).arrAt w (cfgs 0).N) (Proc.devRef .tc main_v29)
      = (dats m 0 c).arrAt 2 cfg0.N :=
  Pipeline.withArrays_arr spec0 launch0.win.arr_inj c _ _ 2

/-- The outlined rectifier on any operand: the transports along the buffers' types are the identity. -/
theorem unwrap_relu (X : (⟨S50000x128, .f32⟩ : BufTy).Contents (Elt Ideal)) (z0 : (⟨S_, .f32⟩ : BufTy).Contents (Elt Ideal)) :
    (TRef.of (sig := sig) (T := ⟨S50000x128, .f32⟩) main_v53).toBuf (Val := Elt Ideal)
      (maximumf (F := Ideal) (φ := .f32) ((TRef.of (sig := sig) (T := ⟨S50000x128, .f32⟩) main_v52).ofBuf (Val := Elt Ideal) X)
        ((TRef.of (sig := sig) (T := ⟨S50000x128, .f32⟩) main_call1_v0).ofBuf (Val := Elt Ideal)
          ((TRef.of (sig := sig) (T := ⟨S50000x128, .f32⟩) main_call1_v0).toBuf (Val := Elt Ideal)
            (broadcastInDim S50000x128 ![] bcast_S_S50000x128
              ((TRef.of (sig := sig) (T := ⟨S_, .f32⟩) main_call1_cst).ofBuf (Val := Elt Ideal)
                ((TRef.of (sig := sig) (T := ⟨S_, .f32⟩) main_call1_cst).toBuf (Val := Elt Ideal) z0))))))
      = maximumf (F := Ideal) (φ := .f32) X (broadcastInDim S50000x128 ![] bcast_S_S50000x128 z0) := rfl

/-- Taking rows commutes with the change of format, which is the identity on the extended reals. -/
theorem gather_widen (x : FVec Ideal S50000x128 .bf16) (idx : IVec S1600000x1 32) :
    extf .f32 (Host.gather gather_S50000x128_S1600000x1_S1600000x128_1_0_n_n_0_1_1128 x idx) bitsLt_bf16_f32
      = Host.gather gather_S50000x128_S1600000x1_S1600000x128_1_0_n_n_0_1_1128 (extf .f32 x bitsLt_bf16_f32) idx := rfl

/-- The change of format is the identity on the extended reals. -/
theorem widen_id (x : FVec Ideal S50000x128 .bf16) : extf .f32 x bitsLt_bf16_f32 = (x : FVec Ideal S50000x128 .f32) := rfl

set_option maxHeartbeats 8000000 in
/-- The result buffer after the host operations that follow the kernel. -/
theorem result (c : Dev nD) :
    Pipeline.afterTail₀ cfgs (dats m) 0 (V0 m) [hostOps1, hostOps1_1, hostOps1_2] c main_v74
      = HostSide.out (m ((c.tc : Thread nD τ).loc main_arg1)) (extf .f32 ((dats m 0 c).arrAt 2 cfg0.N) bitsLt_bf16_f32)
          (m ((c.tc : Thread nD τ).loc main_arg3)) (m ((c.tc : Thread nD τ).loc main_arg4))
          (m ((c.tc : Thread nD τ).loc main_arg5)) := by
  unfold Pipeline.afterTail₀
  simp only [hostOps1, hostOps1_1, hostOps1_2, List.flatten_cons, List.flatten_nil, List.append_nil, List.cons_append,
    List.nil_append]
  after_results_simp
  rw [unwrap_relu, gather_widen, written, kept m c main_v1 (by decide), kept m c main_v3 (by decide), kept m c main_v13 (by decide),
    kept m c main_v28 (by decide), kept m c main_arg3 (by decide), kept m c main_arg4 (by decide),
    kept m c main_arg5 (by decide), Entry.src, Entry.dst, Entry.dinv, Entry.norm, V_main_arg3, V_main_arg4, V_main_arg5]
  rfl

/-- The kernel program's run at the ideal instance: the result at the host side's function of the arguments, with the
    kernel's output the product x · W1; the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v74)
        = HostSide.out (m ((c.tc : Thread nD τ).loc main_arg1))
            (Cert.Dense.mm (m ((c.tc : Thread nD τ).loc main_arg0)) (m ((c.tc : Thread nD τ).loc main_arg2)))
            (m ((c.tc : Thread nD τ).loc main_arg3)) (m ((c.tc : Thread nD τ).loc main_arg4))
            (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v74 (Pipeline.mem_restRefs_of main_v74 (by decide) (by decide))).trans
        ((result m c).trans (by rw [widen_id, Blocks.product])),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.Tail

end
-- ==== Proof.RefHost.lean ====
/-
  The reference program as a function of its first matrix product.

  The reference lists one self-loop per node after the edges (sources and destinations each followed by 0, 1, …,
  N − 1) and then computes everything over the longer list: each node's degree (listed edges into it), the
  normalisation of the degrees, the weight of each listed edge; the first layer (aggregate over the listed edges of
  the product x · W1, plus the bias), its rectification, the product with the second weight column, and the second
  layer of the same form, flattened to one value per node.
-/
import proofs.«169493_j27419071217926_2_alg».proof.ReferenceIdeal
import proofs.«169493_j27419071217926_2_alg».proof.Proof.Gen.ReferenceIdeal
import proofs.«169493_j27419071217926_2_alg».proof.Proof.Gcn

noncomputable section

namespace Cert.ReferenceIdeal.HostSide

open Idealize.ShloMosaic Cert.ReferenceIdeal Cert.ReferenceIdeal.Gen

theorem rE : Cert.Gcn.EdgeFacts 50000 (1600000 + 50000) :=
  ⟨bcast_S_S1650000, bcast_S1650000_S1650000x1_0, scatter_S50000_S1650000x1_S1650000_n_0_0_1_wf,
    gather_S50000_S1650000x1_S1650000_n_0_n_n_0_1_1_wf, bcast_S_S50000⟩

theorem rR1 : Cert.Gcn.RowFacts 50000 128 (1600000 + 50000) :=
  ⟨gather_S50000x128_S1650000x1_S1650000x128_1_0_n_n_0_1_1128_wf, scatter_S50000x128_S1650000x1_S1650000x128_1_0_0_1_wf,
    bcast_S_S50000x128⟩

theorem rR2 : Cert.Gcn.RowFacts 50000 1 (1600000 + 50000) :=
  ⟨gather_S50000x1_S1650000x1_S1650000x1_1_0_n_n_0_1_11_wf, scatter_S50000x1_S1650000x1_S1650000x1_1_0_0_1_wf,
    bcast_S_S50000x1⟩

theorem rCat : Shape.Concatenates [Cert.Gcn.V1 1600000, Cert.Gcn.V1 50000] (Cert.Gcn.V1 (1600000 + 50000)) 0 :=
  concatenates_S1600000_S50000_S1650000_d0

variable (ei : IVec S2x1600000 32)

/-- The edges' sources: row 0 of the edge array. -/
def src0 : IVec S1600000 32 :=
  shapeCast S1600000 (extractStridedSlice S1x1600000 ![0, 0] ei slices_S2x1600000_S1x1600000_0_0) shapeCasts_S1x1600000_S1600000

/-- The edges' destinations: row 1 of the edge array. -/
def dst0 : IVec S1600000 32 :=
  shapeCast S1600000 (extractStridedSlice S1x1600000 ![1, 0] ei slices_S2x1600000_S1x1600000_1_0) shapeCasts_S1x1600000_S1600000

/-- The sources with the loops appended. -/
def src : IVec (Cert.Gcn.V1 (1600000 + 50000)) 32 := Cert.Gcn.cat 1600000 50000 rCat (src0 ei)

/-- The destinations with the loops appended. -/
def dst : IVec (Cert.Gcn.V1 (1600000 + 50000)) 32 := Cert.Gcn.cat 1600000 50000 rCat (dst0 ei)

/-- Each node's degree: the listed edges into it. -/
def deg : FVec Ideal S50000 .f32 := Cert.Gcn.degEdges rE (dst ei)

/-- The normalisation of the degrees. -/
def dinv : FVec Ideal S50000 .f32 := Cert.Gcn.dinvOf bcast_S_S50000 (deg ei)

/-- The weight of each listed edge. -/
def norm : FVec Ideal (Cert.Gcn.V1 (1600000 + 50000)) .f32 := Cert.Gcn.normOf rE (dinv ei) (src ei) (dst ei)

/-- The weights repeated along the 128 feature columns. -/
def nb1 : FVec Ideal S1650000x128 .f32 :=
  broadcastInDim S1650000x128 ![0, 1] bcast_S1650000x1_S1650000x128_0_1
    (broadcastInDim S1650000x1 ![0] bcast_S1650000_S1650000x1_0 (norm ei))

/-- The first bias repeated along the nodes. -/
def bias1 (b1 : FVec Ideal S128 .f32) : FVec Ideal S50000x128 .f32 :=
  broadcastInDim S50000x128 ![0, 1] bcast_S1x128_S50000x128_0_1 (broadcastInDim S1x128 ![1] bcast_S128_S1x128_1 b1)

/-- The first layer before rectification. -/
def layer1 (h : FVec Ideal S50000x128 .f32) (b1 : FVec Ideal S128 .f32) : FVec Ideal S50000x128 .f32 :=
  addf (Cert.Gcn.aggOf rE rR1 (nb1 ei) h (src ei) (dst ei)) (bias1 b1)

/-- The first layer rectified. -/
def hidden (h : FVec Ideal S50000x128 .f32) (b1 : FVec Ideal S128 .f32) : FVec Ideal S50000x128 .f32 :=
  maximumf (layer1 ei h b1) (broadcastInDim S50000x128 ![] bcast_S_S50000x128 (constant (F := Ideal) S_ .f32 0x00000000#32))

/-- Its product with the second weight column. -/
def proj (h : FVec Ideal S50000x128 .f32) (b1 : FVec Ideal S128 .f32) (W2 : FVec Ideal S128x1 .f32) : FVec Ideal S50000x1 .f32 :=
  Host.dotGeneral (F := Ideal) dot_S50000x128_S128x1_S50000x1_1_0_0_1_n_n none (hidden ei h b1) W2

/-- The weights as a column. -/
def nb2 : FVec Ideal S1650000x1 .f32 := broadcastInDim S1650000x1 ![0] bcast_S1650000_S1650000x1_0 (norm ei)

/-- The second bias repeated along the nodes. -/
def bias2 (b2 : FVec Ideal S1 .f32) : FVec Ideal S50000x1 .f32 :=
  broadcastInDim S50000x1 ![0, 1] bcast_S1x1_S50000x1_0_1 (broadcastInDim S1x1 ![1] bcast_S1_S1x1_1 b2)

/-- The second layer, as a column. -/
def layer2 (f : FVec Ideal S50000x1 .f32) (b2 : FVec Ideal S1 .f32) : FVec Ideal S50000x1 .f32 :=
  addf (Cert.Gcn.aggOf rE rR2 (nb2 ei) f (src ei) (dst ei)) (bias2 b2)

/-- The first matrix product, as the host spells it. -/
def prod (x : FVec Ideal S50000x512 .f32) (W1 : FVec Ideal S512x128 .f32) : FVec Ideal S50000x128 .f32 :=
  Host.dotGeneral (F := Ideal) dot_S50000x512_S512x128_S50000x128_1_0_0_1_n_n none x W1

/-- The program's result from the first product h: one value per node. -/
def out (h : FVec Ideal S50000x128 .f32) (b1 : FVec Ideal S128 .f32) (W2 : FVec Ideal S128x1 .f32) (b2 : FVec Ideal S1 .f32) :
    FVec Ideal S50000 .f32 :=
  shapeCast S50000 (layer2 ei (proj ei h b1 W2) b2) shapeCasts_S50000x1_S50000

end Cert.ReferenceIdeal.HostSide

end
-- ==== Proof.RefTerm.lean ====
/-
  The reference program's result as the host side's function of the arguments: the run's composed term, operation
  for operation, is the description's.
-/
import proofs.«169493_j27419071217926_2_alg».proof.Proof.RefRun
import proofs.«169493_j27419071217926_2_alg».proof.Proof.RefHost
import Idealize.ShloMosaic.PureOps.Ideal

noncomputable section

namespace Cert.ReferenceIdeal.Term

open Idealize.ShloMosaic Idealize.ShloMosaic.TcCoe Idealize.SL.Sem Cert.ReferenceIdeal Cert.ReferenceIdeal.Gen

set_option maxRecDepth 16384 in
set_option maxHeartbeats 4000000 in
/-- The result the run names is the host side's function of the argument arrays. -/
theorem result (m : (ℓ : Loc nD τ sig) → Buf (Elt Ideal) ℓ) (c : Dev nD) :
    Cert.ReferenceIdeal.ValueP.res_main_v94 (F := Ideal) m c
      = HostSide.out (m ((c.tc : Thread nD τ).loc main_arg1))
          (HostSide.prod (m ((c.tc : Thread nD τ).loc main_arg0)) (m ((c.tc : Thread nD τ).loc main_arg2)))
          (m ((c.tc : Thread nD τ).loc main_arg3)) (m ((c.tc : Thread nD τ).loc main_arg4))
          (m ((c.tc : Thread nD τ).loc main_arg5)) := by
  unfold Cert.ReferenceIdeal.ValueP.res_main_v94
  rfl

end Cert.ReferenceIdeal.Term

end
-- ==== Proof.Bridge.lean ====
/-
  The two programs' host sides compute one function of the first matrix product.

  The kernel program aggregates over the edges and adds each node's own row separately; the reference lists one
  self-loop per node after the edges and aggregates over the longer list. Node by node these agree: the degree
  (edges into the node plus one, against listed edges into the node), hence the normalisation; each layer
  (edge aggregate plus own row weighted by the normalisation squared, against the aggregate over the longer list);
  and everything computed from them by the same operations.
-/
import proofs.«169493_j27419071217926_2_alg».proof.Proof.KernelHost
import proofs.«169493_j27419071217926_2_alg».proof.Proof.RefHost
import proofs.«169493_j27419071217926_2_alg».proof.Proof.LibDense

set_option maxHeartbeats 400000

noncomputable section

namespace Cert.Bridge

open Idealize.ShloMosaic Idealize.ShloMosaic.ValueIdx

variable (ei : IVec Cert.KernelIdeal.S2x1600000 32)

theorem nodes_small : (50000 : ℕ) ≤ 2 ^ 31 := by norm_num
theorem nodes_pos : 0 < (50000 : ℕ) := by norm_num

/-- Both programs read the sources and the destinations off the edge array alike. -/
theorem src_eq : Cert.ReferenceIdeal.HostSide.src0 ei = Cert.KernelIdeal.HostSide.src ei := rfl
theorem dst_eq : Cert.ReferenceIdeal.HostSide.dst0 ei = Cert.KernelIdeal.HostSide.dst ei := rfl

/-- The degrees agree: listed edges into a node with the loops appended, against edges into it plus one. -/
theorem deg_eq : Cert.ReferenceIdeal.HostSide.deg ei = Cert.KernelIdeal.HostSide.deg ei :=
  Cert.Gcn.deg_cat nodes_small Cert.KernelIdeal.HostSide.kE Cert.ReferenceIdeal.HostSide.rE
    Cert.ReferenceIdeal.HostSide.rCat (Cert.KernelIdeal.HostSide.dst ei)

/-- So do the normalisations. -/
theorem dinv_eq : Cert.ReferenceIdeal.HostSide.dinv ei = Cert.KernelIdeal.HostSide.dinv ei := by
  unfold Cert.ReferenceIdeal.HostSide.dinv Cert.KernelIdeal.HostSide.dinv
  rw [deg_eq]

/-- The reference's listed weights are the weights of the longer list under the kernel program's normalisation. -/
theorem norm_eq : Cert.ReferenceIdeal.HostSide.norm ei
    = Cert.Gcn.normOf Cert.ReferenceIdeal.HostSide.rE (Cert.KernelIdeal.HostSide.dinv ei)
        (Cert.Gcn.cat 1600000 50000 Cert.ReferenceIdeal.HostSide.rCat (Cert.KernelIdeal.HostSide.src ei))
        (Cert.Gcn.cat 1600000 50000 Cert.ReferenceIdeal.HostSide.rCat (Cert.KernelIdeal.HostSide.dst ei)) := by
  unfold Cert.ReferenceIdeal.HostSide.norm
  rw [dinv_eq]
  rfl

/-- The first layers agree on every feature matrix. -/
theorem layer1_eq (h : FVec Ideal Cert.KernelIdeal.S50000x128 .f32) (b1 : FVec Ideal Cert.KernelIdeal.S128 .f32) :
    Cert.ReferenceIdeal.HostSide.layer1 ei h b1 = Cert.KernelIdeal.HostSide.layer1 ei h b1 :=
  Cert.Gcn.layer_cat (N := 50000) (E := 1600000) (C := 128) nodes_pos nodes_small Cert.KernelIdeal.HostSide.kE
    Cert.ReferenceIdeal.HostSide.rE Cert.KernelIdeal.HostSide.kR1 Cert.ReferenceIdeal.HostSide.rR1
    Cert.ReferenceIdeal.HostSide.rCat (Cert.KernelIdeal.HostSide.dinv ei) (Cert.KernelIdeal.HostSide.src ei)
    (Cert.KernelIdeal.HostSide.dst ei) (Cert.KernelIdeal.HostSide.nb1 ei) (Cert.ReferenceIdeal.HostSide.nb1 ei)
    (Cert.KernelIdeal.HostSide.self1 ei) h (Cert.KernelIdeal.HostSide.bias1 b1)
    (fun e c => by
      unfold Cert.KernelIdeal.HostSide.nb1
      exact Cert.Gcn.col_repeat_apply _ _ (Cert.KernelIdeal.HostSide.norm ei) e c)
    (fun r c => by
      unfold Cert.ReferenceIdeal.HostSide.nb1
      rw [norm_eq]
      exact Cert.Gcn.col_repeat_apply (M := 1600000 + 50000) (C := 128) _ _ _ r c)
    (fun p c => by
      unfold Cert.KernelIdeal.HostSide.self1
      exact Cert.Gcn.self_repeat_apply (N := 50000) (C := 128) _ _ (Cert.KernelIdeal.HostSide.dinv ei) p c)

/-- The second layers agree on every feature column. -/
theorem layer2_eq (f : FVec Ideal Cert.KernelIdeal.S50000x1 .f32) (b2 : FVec Ideal Cert.KernelIdeal.S1 .f32) :
    Cert.ReferenceIdeal.HostSide.layer2 ei f b2 = Cert.KernelIdeal.HostSide.layer2 ei f b2 :=
  Cert.Gcn.layer_cat (N := 50000) (E := 1600000) (C := 1) nodes_pos nodes_small Cert.KernelIdeal.HostSide.kE
    Cert.ReferenceIdeal.HostSide.rE Cert.KernelIdeal.HostSide.kR2 Cert.ReferenceIdeal.HostSide.rR2
    Cert.ReferenceIdeal.HostSide.rCat (Cert.KernelIdeal.HostSide.dinv ei) (Cert.KernelIdeal.HostSide.src ei)
    (Cert.KernelIdeal.HostSide.dst ei) (Cert.KernelIdeal.HostSide.nb2 ei) (Cert.ReferenceIdeal.HostSide.nb2 ei)
    (Cert.KernelIdeal.HostSide.self2 ei) f (Cert.KernelIdeal.HostSide.bias2 b2)
    (fun e c => by
      unfold Cert.KernelIdeal.HostSide.nb2
      exact Cert.Gcn.col_apply1 (M := 1600000) _ (Cert.KernelIdeal.HostSide.norm ei) e c)
    (fun r c => by
      unfold Cert.ReferenceIdeal.HostSide.nb2
      rw [norm_eq]
      exact Cert.Gcn.col_apply1 (M := 1600000 + 50000) _ _ r c)
    (fun p c => by
      unfold Cert.KernelIdeal.HostSide.self2
      exact Cert.Gcn.self_col_apply (N := 50000) _ (Cert.KernelIdeal.HostSide.dinv ei) p c)

/-- The reference's first product, as the host spells it, is the matrix product. -/
theorem prod_eq (x : FVec Ideal Cert.KernelIdeal.S50000x512 .f32) (W1 : FVec Ideal Cert.KernelIdeal.S512x128 .f32) :
    Cert.ReferenceIdeal.HostSide.prod x W1 = Cert.Dense.mm x W1 :=
  Cert.Dense.dotGeneral_plain (M := 50000) (K := 512) (N := 128) x W1

/-- From one first product the two programs reach one result. -/
theorem out_eq (h : FVec Ideal Cert.KernelIdeal.S50000x128 .f32) (b1 : FVec Ideal Cert.KernelIdeal.S128 .f32)
    (W2 : FVec Ideal Cert.KernelIdeal.S128x1 .f32) (b2 : FVec Ideal Cert.KernelIdeal.S1 .f32) :
    Cert.ReferenceIdeal.HostSide.out ei h b1 W2 b2 = Cert.KernelIdeal.HostSide.out ei h b1 W2 b2 := by
  unfold Cert.ReferenceIdeal.HostSide.out Cert.KernelIdeal.HostSide.out Cert.ReferenceIdeal.HostSide.proj
    Cert.KernelIdeal.HostSide.proj Cert.ReferenceIdeal.HostSide.hidden Cert.KernelIdeal.HostSide.hidden
  rw [layer2_eq, layer1_eq]
  rfl

end Cert.Bridge

end
-- ==== Proof.lean ====
/-
  A two-layer graph convolution: the kernel program against its reference, on the extended reals.

  Both programs normalise by the degrees D (edges into a node plus one for its self-loop): with dinv = D^(-1/2)
  where D is positive, a layer sends a feature matrix H to  Â · H + b,  where Â(i, j) sums dinv(src) · dinv(dst)
  over the edges j → i and adds dinv(i)² on the diagonal. The first layer acts on x · W1 and is rectified; the
  second acts on its product with W2.

  The kernel computes x · W1 (ten blocks of 5000 rows, each a block of rows of the whole product) and its host
  side adds the diagonal term explicitly; the reference appends one loop (i, i) per node to the edge list and lets
  the edge sums cover it. The two agree node by node because a sum over the longer list splits into the sum
  over the edges and the sum over the loops, of which exactly one names a given node, and sums of extended reals
  regroup freely; an index outside the nodes is read clamped when a row is taken and dropped when a row is
  accumulated, on both sides alike, and the appended loops are in range. No finiteness is used.

  The three frames are the generated ones (the reference's from its run); the idealisation rewrote nothing.
-/
import proofs.«169493_j27419071217926_2_alg».proof.Defs
import proofs.«169493_j27419071217926_2_alg».proof.Proof.Gen.Kernel
import proofs.«169493_j27419071217926_2_alg».proof.Proof.Gen.Kernel.Skeleton
import proofs.«169493_j27419071217926_2_alg».proof.Proof.Gen.Kernel.Launch
import proofs.«169493_j27419071217926_2_alg».proof.Proof.Gen.Kernel.Points
import proofs.«169493_j27419071217926_2_alg».proof.Proof.Gen.Kernel.Frame
import proofs.«169493_j27419071217926_2_alg».proof.Proof.Gen.KernelIdeal
import proofs.«169493_j27419071217926_2_alg».proof.Proof.Gen.KernelIdeal.Skeleton
import proofs.«169493_j27419071217926_2_alg».proof.Proof.Gen.KernelIdeal.Launch
import proofs.«169493_j27419071217926_2_alg».proof.Proof.Gen.KernelIdeal.Points
import proofs.«169493_j27419071217926_2_alg».proof.Proof.Gen.KernelIdeal.Frame
import proofs.«169493_j27419071217926_2_alg».proof.Proof.Gen.ReferenceIdeal
import proofs.«169493_j27419071217926_2_alg».proof.Proof.Gen.Pre_finite_inputs
import proofs.«169493_j27419071217926_2_alg».proof.Proof.KernelTail
import proofs.«169493_j27419071217926_2_alg».proof.Proof.RefTerm
import proofs.«169493_j27419071217926_2_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel :=
  fun m ρ _ => Cert.Kernel.Gen.frame m ρ

theorem frame_ki : Cert.frame_KernelIdeal :=
  fun m ρ _ => Cert.KernelIdeal.Gen.frame m ρ

/-- The reference's frame is its run with the result dropped. -/
theorem frame_ri : Cert.frame_ReferenceIdeal :=
  fun m ρ _ => (θ_run Cert.ReferenceIdeal.defs _ _).mono (fun _ h c => (h c).2)
    (Cert.ReferenceIdeal.ValueP.run (F := Ideal) m ρ)

/-- Both programs end at the kernel program's host side applied to the product x · W1 of the arguments. -/
theorem algebraic : Cert.algebraic_KernelIdeal_ReferenceIdeal := by
  intro m ρ m' ρ' _ hagree
  refine ⟨_, Cert.KernelIdeal.Tail.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.Term.result, (hagree c).1, (hagree c).2.1, (hagree c).2.2.1, (hagree c).2.2.2.1,
    (hagree c).2.2.2.2.1, (hagree c).2.2.2.2.2, Cert.Bridge.prod_eq]
  exact Cert.Bridge.out_eq _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
